-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x128 .f32) (main_arg14 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128x1 .f32) (main_arg10 : FVec F S1 .f32) (main_arg11 : FVec F S256x128 .f32) (main_arg12 : FVec F S128 .f32) (main_arg13 : FVec F S128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : FVec F S256x128 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : FVec F S50000x3 .f32) (main_arg2 : IVec S2x600000 32) (main_arg3 : FVec F S257x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : FVec F S256x128 .f32) (main_arg12 : FVec F S128 .f32) (main_arg13 : FVec F S128x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x3 : Shape := ⟨2, ![600000, 3]⟩
abbrev S1x128 : Shape := ⟨2, ![1, 128]⟩
abbrev S1x1 : Shape := ⟨2, ![1, 1]⟩
abbrev S4000x128 : Shape := ⟨2, ![4000, 128]⟩
abbrev S4000x1 : Shape := ⟨2, ![4000, 1]⟩
abbrev S2000x128 : Shape := ⟨2, ![2000, 128]⟩

abbrev nBuf : Space → Nat
  | .hbm => 100
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x600000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S50000x128, .bf16⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .bf16⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .bf16⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x3, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x3, .f32⟩
  | .hbm, ⟨56, _⟩ => ⟨S600000x3, .f32⟩
  | .hbm, ⟨57, _⟩ => ⟨S600000x3, .f32⟩
  | .hbm, ⟨58, _⟩ => ⟨S_, .f32⟩
  | .hbm, ⟨59, _⟩ => ⟨S600000, .f32⟩
  | .hbm, ⟨60, _⟩ => ⟨S600000x1, .f32⟩
  | .hbm, ⟨61, _⟩ => ⟨S600000x1, .f32⟩
  | .hbm, ⟨62, _⟩ => ⟨S_, .f32⟩
  | .hbm, ⟨63, _⟩ => ⟨S600000x1, .f32⟩
  | .hbm, ⟨64, _⟩ => ⟨S600000x1, .f32⟩
  | .hbm, ⟨65, _⟩ => ⟨S600000x3, .f32⟩
  | .hbm, ⟨66, _⟩ => ⟨S600000x3, .f32⟩
  | .hbm, ⟨67, _⟩ => ⟨S128x128, .f32⟩
  | .hbm, ⟨68, _⟩ => ⟨S128x128, .bf16⟩
  | .hbm, ⟨69, _⟩ => ⟨S128x128, .f32⟩
  | .hbm, ⟨70, _⟩ => ⟨S128x128, .bf16⟩
  | .hbm, ⟨71, _⟩ => ⟨S1x128, .f32⟩
  | .hbm, ⟨72, _⟩ => ⟨S1x128, .f32⟩
  | .hbm, ⟨73, _⟩ => ⟨S128x128, .bf16⟩
  | .hbm, ⟨74, _⟩ => ⟨S1x128, .f32⟩
  | .hbm, ⟨75, _⟩ => ⟨S128x128, .bf16⟩
  | .hbm, ⟨76, _⟩ => ⟨S1x128, .f32⟩
  | .hbm, ⟨77, _⟩ => ⟨S128x1, .bf16⟩
  | .hbm, ⟨78, _⟩ => ⟨S1x1, .f32⟩
  | .hbm, ⟨79, _⟩ => ⟨S600000x128, .f32⟩
  | .hbm, ⟨80, _⟩ => ⟨S600000x1, .f32⟩
  | .hbm, ⟨81, _⟩ => ⟨S600000x3, .f32⟩
  | .hbm, ⟨82, _⟩ => ⟨S600000x3, .f32⟩
  | .hbm, ⟨83, _⟩ => ⟨S_, .f32⟩
  | .hbm, ⟨84, _⟩ => ⟨S50000x128, .f32⟩
  | .hbm, ⟨85, _⟩ => ⟨S600000x1, .i32⟩
  | .hbm, ⟨86, _⟩ => ⟨S50000x128, .f32⟩
  | .hbm, ⟨87, _⟩ => ⟨S_, .f32⟩
  | .hbm, ⟨88, _⟩ => ⟨S50000x3, .f32⟩
  | .hbm, ⟨89, _⟩ => ⟨S600000x1, .i32⟩
  | .hbm, ⟨90, _⟩ => ⟨S50000x3, .f32⟩
  | .hbm, ⟨91, _⟩ => ⟨S50000x3, .f32⟩
  | .hbm, ⟨92, _⟩ => ⟨S128x128, .f32⟩
  | .hbm, ⟨93, _⟩ => ⟨S128x128, .bf16⟩
  | .hbm, ⟨94, _⟩ => ⟨S128x128, .f32⟩
  | .hbm, ⟨95, _⟩ => ⟨S128x128, .bf16⟩
  | .hbm, ⟨96, _⟩ => ⟨S1x128, .f32⟩
  | .hbm, ⟨97, _⟩ => ⟨S128x128, .bf16⟩
  | .hbm, ⟨98, _⟩ => ⟨S1x128, .f32⟩
  | .hbm, ⟨99, _⟩ => ⟨S50000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x1, .f32⟩
  | .local _ .vmem, ⟨5, _⟩ => ⟨S4000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S128x1, .bf16⟩
  | .local _ .vmem, ⟨15, _⟩ => ⟨S1x1, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .bf16⟩
  | .local _ .vmem, ⟨25, _⟩ => ⟨S128x128, .bf16⟩
  | .local _ .vmem, ⟨26, _⟩ => ⟨S1x128, .f32⟩
  | .local _ .vmem, ⟨27, _⟩ => ⟨S128x128, .bf16⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54_0 : Ref sig .tc := ⟨.hbm, 79, rfl⟩
abbrev main_v54_1 : Ref sig .tc := ⟨.hbm, 80, rfl⟩
abbrev main_v55 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg7_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem7_1 : DmaSem sig := 30

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4000x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  bcast_S_S600000x1 : S_.BroadcastsInDim S600000x1 (![] : Fin 0 → Fin S600000x1.rank)
  bcast_S600000x1_S600000x3_0_1 : S600000x1.BroadcastsInDim S600000x3 (![0, 1] : Fin 2 → Fin S600000x3.rank)
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  bcast_S_S50000x128 : S_.BroadcastsInDim S50000x128 (![] : Fin 0 → Fin S50000x128.rank)
  bcast_S_S50000x3 : S_.BroadcastsInDim S50000x3 (![] : Fin 0 → Fin S50000x3.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  gather_S50000x3_S600000x1_S600000x3_1_0_n_n_0_1_13_wf : GatherDims.WF S50000x3 S600000x1 S600000x3 [1] [0] [] [0] [] 1 ![1, 3]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x128_S600000x1_S600000x128_1_0_0_1_wf : ScatterDims.WF S50000x128 S600000x1 S600000x128 [1] [0] [0] 1
  scatter_S50000x3_S600000x1_S600000x3_1_0_0_1_wf : ScatterDims.WF S50000x3 S600000x1 S600000x3 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S600000x128.size a
  hwx0_0 : ∀ i : grid0.Coords, EltTy.bits .bf16 = 32 ∨ (Rect.block (s := S600000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S600000x128.size a
  hwx0_1 : ∀ i : grid0.Coords, EltTy.bits .bf16 = 32 ∨ (Rect.block (s := S600000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S600000x1.size a
  hwx0_2 : ∀ i : grid0.Coords, EltTy.bits .f32 = 32 ∨ (Rect.block (s := S600000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .bf16 = 32 ∨ (Rect.block (s := S128x1) S128x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x128.size a ≤ S600000x128.size a
  hwx0_13 : ∀ i : grid0.Coords, EltTy.bits .f32 = 32 ∨ (Rect.block (s := S600000x128) S4000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x1.size a ≤ S600000x1.size a
  hwx0_14 : ∀ i : grid0.Coords, EltTy.bits .f32 = 32 ∨ (Rect.block (s := S600000x1) S4000x1.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x3_S600000x1_S600000x3_1_0_0_1 : ScatterDims S50000x3 S600000x1 S600000x3 where
  updateWindowDims := [1]
  insertedWindowDims := [0]
  scatterDimsToOperandDims := [0]
  indexVectorDim := 1
  wf := scatter_S50000x3_S600000x1_S600000x3_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v11) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v47) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v48) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v49) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v50) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v51) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v52) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v53) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v54_0) S4000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v54_1) S4000x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v68) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v69) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v70) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v71) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩
abbrev S600000x257 : Shape := ⟨2, ![600000, 257]⟩
abbrev S1x128 : Shape := ⟨2, ![1, 128]⟩
abbrev S1x1 : Shape := ⟨2, ![1, 1]⟩
abbrev S50000x256 : Shape := ⟨2, ![50000, 256]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S50000x3, .f32⟩
  | 2 => ⟨S2x600000, .i32⟩
  | 3 => ⟨S257x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S256x128, .f32⟩
  | 12 => ⟨S128, .f32⟩
  | 13 => ⟨S128x128, .f32⟩
  | 14 => ⟨S128, .f32⟩
  | 15 => ⟨S1x600000, .i32⟩
  | 16 => ⟨S600000, .i32⟩
  | 17 => ⟨S1x600000, .i32⟩
  | 18 => ⟨S600000, .i32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x3, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x3, .f32⟩
  | 37 => ⟨S600000x3, .f32⟩
  | 38 => ⟨S600000x3, .f32⟩
  | 39 => ⟨S_, .f32⟩
  | 40 => ⟨S600000, .f32⟩
  | 41 => ⟨S600000x1, .f32⟩
  | 42 => ⟨S600000x1, .f32⟩
  | 43 => ⟨S_, .f32⟩
  | 44 => ⟨S600000x1, .f32⟩
  | 45 => ⟨S600000x1, .f32⟩
  | 46 => ⟨S600000x3, .f32⟩
  | 47 => ⟨S600000x3, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S600000x257, .f32⟩
  | 67 => ⟨S600000x128, .f32⟩
  | 68 => ⟨S1x128, .f32⟩
  | 69 => ⟨S600000x128, .f32⟩
  | 70 => ⟨S600000x128, .f32⟩
  | 71 => ⟨S600000x128, .f32⟩
  | 72 => ⟨S600000x128, .f32⟩
  | 73 => ⟨S_, .f32⟩
  | 74 => ⟨S600000x128, .f32⟩
  | 75 => ⟨S600000x128, .f32⟩
  | 76 => ⟨S_, .f32⟩
  | 77 => ⟨S600000x128, .f32⟩
  | 78 => ⟨S600000x128, .f32⟩
  | 79 => ⟨S600000x128, .f32⟩
  | 80 => ⟨S600000x128, .f32⟩
  | 81 => ⟨S1x128, .f32⟩
  | 82 => ⟨S600000x128, .f32⟩
  | 83 => ⟨S600000x128, .f32⟩
  | 84 => ⟨S600000x128, .f32⟩
  | 85 => ⟨S600000x128, .f32⟩
  | 86 => ⟨S_, .f32⟩
  | 87 => ⟨S600000x128, .f32⟩
  | 88 => ⟨S600000x128, .f32⟩
  | 89 => ⟨S_, .f32⟩
  | 90 => ⟨S600000x128, .f32⟩
  | 91 => ⟨S600000x128, .f32⟩
  | 92 => ⟨S600000x128, .f32⟩
  | 93 => ⟨S600000x128, .f32⟩
  | 94 => ⟨S1x128, .f32⟩
  | 95 => ⟨S600000x128, .f32⟩
  | 96 => ⟨S600000x128, .f32⟩
  | 97 => ⟨S600000x128, .f32⟩
  | 98 => ⟨S600000x128, .f32⟩
  | 99 => ⟨S_, .f32⟩
  | 100 => ⟨S600000x128, .f32⟩
  | 101 => ⟨S600000x128, .f32⟩
  | 102 => ⟨S_, .f32⟩
  | 103 => ⟨S600000x128, .f32⟩
  | 104 => ⟨S600000x128, .f32⟩
  | 105 => ⟨S600000x128, .f32⟩
  | 106 => ⟨S600000x1, .f32⟩
  | 107 => ⟨S1x1, .f32⟩
  | 108 => ⟨S600000x1, .f32⟩
  | 109 => ⟨S600000x1, .f32⟩
  | 110 => ⟨S600000x3, .f32⟩
  | 111 => ⟨S600000x3, .f32⟩
  | 112 => ⟨S_, .f32⟩
  | 113 => ⟨S50000x3, .f32⟩
  | 114 => ⟨S600000x1, .i32⟩
  | 115 => ⟨S50000x3, .f32⟩
  | 116 => ⟨S50000x3, .f32⟩
  | 117 => ⟨S_, .f32⟩
  | 118 => ⟨S50000x128, .f32⟩
  | 119 => ⟨S600000x1, .i32⟩
  | 120 => ⟨S50000x128, .f32⟩
  | 121 => ⟨S50000x256, .f32⟩
  | 122 => ⟨S50000x128, .f32⟩
  | 123 => ⟨S1x128, .f32⟩
  | 124 => ⟨S50000x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call2_v0 : Ref sig .tc := ⟨.hbm, 97, rfl⟩
abbrev main_call2_v1 : Ref sig .tc := ⟨.hbm, 98, rfl⟩
abbrev main_call2_cst : Ref sig .tc := ⟨.hbm, 99, rfl⟩
abbrev main_call2_v2 : Ref sig .tc := ⟨.hbm, 100, rfl⟩
abbrev main_call2_v3 : Ref sig .tc := ⟨.hbm, 101, rfl⟩
abbrev main_call2_cst_0 : Ref sig .tc := ⟨.hbm, 102, rfl⟩
abbrev main_call2_v4 : Ref sig .tc := ⟨.hbm, 103, rfl⟩
abbrev main_call2_v5 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_8 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_9 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_call3_v0 : Ref sig .tc := ⟨.hbm, 126, rfl⟩
abbrev main_call3_v1 : Ref sig .tc := ⟨.hbm, 127, rfl⟩
abbrev main_call3_cst : Ref sig .tc := ⟨.hbm, 128, rfl⟩
abbrev main_call3_v2 : Ref sig .tc := ⟨.hbm, 129, rfl⟩
abbrev main_call3_v3 : Ref sig .tc := ⟨.hbm, 130, rfl⟩
abbrev main_call3_cst_0 : Ref sig .tc := ⟨.hbm, 131, rfl⟩
abbrev main_call3_v4 : Ref sig .tc := ⟨.hbm, 132, rfl⟩
abbrev main_call3_v5 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  bcast_S_S600000x1 : S_.BroadcastsInDim S600000x1 (![] : Fin 0 → Fin S600000x1.rank)
  bcast_S600000x1_S600000x3_0_1 : S600000x1.BroadcastsInDim S600000x3 (![0, 1] : Fin 2 → Fin S600000x3.rank)
  concatenates_S600000x128_S600000x128_S600000x1_S600000x257_d1 : Shape.Concatenates [S600000x128, S600000x128, S600000x1] S600000x257 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S_S50000x3 : S_.BroadcastsInDim S50000x3 (![] : Fin 0 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S600000x1_S600000x3_1_0_n_n_0_1_13_wf : GatherDims.WF S50000x3 S600000x1 S600000x3 [1] [0] [] [0] [] 1 ![1, 3]
  gather_S50000x128_S600000x1_S600000x128_1_0_n_n_0_1_1128_wf : GatherDims.WF S50000x128 S600000x1 S600000x128 [1] [0] [] [0] [] 1 ![1, 128]
  dot_S600000x257_S257x128_S600000x128_1_0_0_1_n_n_wf : DotDims.WF S600000x257 S257x128 S600000x128 [1] [0] [0] [1] [] []
  dot_S600000x128_S128x128_S600000x128_1_0_0_1_n_n_wf : DotDims.WF S600000x128 S128x128 S600000x128 [1] [0] [0] [1] [] []
  dot_S600000x128_S128x1_S600000x1_1_0_0_1_n_n_wf : DotDims.WF S600000x128 S128x1 S600000x1 [1] [0] [0] [1] [] []
  scatter_S50000x3_S600000x1_S600000x3_1_0_0_1_wf : ScatterDims.WF S50000x3 S600000x1 S600000x3 [1] [0] [0] 1
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x257_S257x128_S600000x128_1_0_0_1_n_n : DotDims S600000x257 S257x128 S600000x128 where
  lhsContracting := [1]
  rhsContracting := [0]
  lhsNonContracting := [0]
  rhsNonContracting := [1]
  lhsBatch := []
  rhsBatch := []
  wf := dot_S600000x257_S257x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def scatter_S50000x3_S600000x1_S600000x3_1_0_0_1 : ScatterDims S50000x3 S600000x1 S600000x3 where
  updateWindowDims := [1]
  insertedWindowDims := [0]
  scatterDimsToOperandDims := [0]
  indexVectorDim := 1
  wf := scatter_S50000x3_S600000x1_S600000x3_1_0_0_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run with its two results named.

  The program is four stretches: host operations, the edge region, host operations, the node region.  The contents of
  every buffer at each boundary form a fold from the launch memory: a host stretch applies its operations, a region
  replaces its arrays by what its write-backs leave and keeps every other buffer.  Every weakly fair execution
  terminates in a state whose unscoped buffers hold the last boundary's contents; read at the two result buffers this
  names the results (the node region's output array and the host sum `coord + Σ`), and read at the arguments it says
  they are unchanged.
-/
import proofs.«168866_j68195490726193_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the two result buffers end at the last boundary's contents (the fold
    `W4` through the four stretches), the arguments as launched. -/
theorem run_named : θ_run defs (onTc (τ := τ) (main (F := F))) ⟨m, fun _ => 0, ρ⟩ (fun r => ∀ c : Dev nD,
      r.2.mem ((c.tc : Thread nD τ).loc main_v71) = W4 m ρ c (Proc.devRef .tc main_v71)
      ∧ r.2.mem ((c.tc : Thread nD τ).loc main_v63) = W4 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v71 (by decide)), h c _ (mem_uc main_v63 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.RunValue

end
-- ==== Proof.LibLogistic.lean ====
/-
  A reusable lemma: the logistic function written two ways, on the extended reals, and the f32 words of 0, 1 and 0.5.

  One program computes the logistic function as 1 / (1 + e^(-v)); the other as 1/2 · tanh (v/2) + 1/2.  Over the
  reals these are one function: with a = e^(v/2),  tanh (v/2) = (a - 1/a) / (a + 1/a),  so
  1/2 · tanh (v/2) + 1/2 = a / (a + 1/a) = 1 / (1 + 1/a²) = 1 / (1 + e^(-v)).
  Over the extended reals the identity survives at both infinities: at -∞ both sides are 0 (tanh (-∞) = -1,
  e^(+∞) = +∞, 1/∞ = 0) and at +∞ both are 1.  So the identity needs no finiteness of v.
-/
import Idealize.ShloMosaic.PureOps.Ideal

noncomputable section

namespace Cert.Logistic

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- The quotient 1 / (1 + e^(-v)) with the literal 1.0 in both places is the logistic function. -/
theorem one_div_one_add_exp_neg (v : EReal) :
    Ideal.div (Ideal.ofBits .f32 0x3F800000#32) (Ideal.ofBits .f32 0x3F800000#32 + Ideal.exp (-v)) = Ideal.logistic v := by
  rw [ofBits_one]; rfl

/-- Over the reals: 1/2 · tanh (r/2) + 1/2 = 1 / (1 + e^(-r)). -/
theorem real_half_tanh (r : ℝ) : (1 / 2 : ℝ) * Real.tanh ((1 / 2) * r) + 1 / 2 = (1 + Real.exp (-r))⁻¹ := by
  have hp : 0 < Real.exp (1 / 2 * r) := Real.exp_pos _
  have hn : Real.exp (-(1 / 2 * r)) = (Real.exp (1 / 2 * r))⁻¹ := Real.exp_neg _
  have h1 : Real.exp (-r) = (Real.exp (1 / 2 * r))⁻¹ * (Real.exp (1 / 2 * r))⁻¹ := by
    rw [← hn, ← Real.exp_add]; congr 1; ring
  rw [Real.tanh_eq_sinh_div_cosh, Real.sinh_eq, Real.cosh_eq, hn, h1]
  field_simp
  ring

/-- Over the extended reals, with the literal 0.5 in all three places: 0.5 · tanh (0.5 · v) + 0.5 is the logistic
    function of v, infinities included. -/
theorem half_tanh_half (v : EReal) :
    Ideal.ofBits .f32 0x3F000000#32 * Ideal.tanh (Ideal.ofBits .f32 0x3F000000#32 * v) + Ideal.ofBits .f32 0x3F000000#32
      = Ideal.logistic v := by
  rw [ofBits_half]
  have hneg : (-1 : EReal) = ((-1 : ℝ) : EReal) := by norm_num
  have hone : (1 : EReal) = ((1 : ℝ) : EReal) := rfl
  induction v using EReal.rec with
  | bot =>
    rw [EReal.coe_mul_bot_of_pos (by norm_num), Ideal.tanh_bot, Ideal.logistic_bot, hneg, ← EReal.coe_mul, ← EReal.coe_add]
    norm_num
  | coe r =>
    rw [← EReal.coe_mul, Ideal.tanh_coe, ← EReal.coe_mul, ← EReal.coe_add, Ideal.logistic_coe, real_half_tanh]
  | top =>
    rw [EReal.coe_mul_top_of_pos (by norm_num), Ideal.tanh_top, Ideal.logistic_top, hone, ← EReal.coe_mul, ← EReal.coe_add]
    norm_num

end Cert.Logistic

end
-- ==== Proof.Spec.lean ====
/-
  The dense stages of an equivariant graph-convolution layer, as functions of extended-real matrices, entry by entry.

  Write σ for the logistic function and silu v = v · σ v.  For an edge row p with gathered features hr[p,·], hc[p,·]
  (128 each) and squared distance rad[p,0], the first edge layer is written with its 257-row weight matrix already cut
  into the three row bands that meet hr, hc and rad:

      hid[p,k]  = ((Σ_j hr[p,j]·Wr[j,k] + Σ_j hc[p,j]·Wc[j,k]) + rad[p,0]·Wrad[0,k]) + b1[0,k]
      msg[p,q]  = silu (Σ_k silu hid[p,k] · W2[k,q] + b2[0,q])
      wt[p]     = Σ_k silu (Σ_j msg[p,j]·C1[j,k] + c1[0,k]) · C2[k,0] + c2[0,0]

  and for a node row p with features h[p,·] and aggregated messages mi[p,·]

      out[p,q]  = h[p,q] + (Σ_k silu ((Σ_j h[p,j]·Wh[j,k] + Σ_j mi[p,j]·Wm[j,k]) + b1[0,k]) · W2[k,q] + b2[0,q]).

  Every one of these reads only row p of its row-indexed operands: the same formula gives a block of rows and the whole
  array (the `_rows` lemmas).  The two laws that join "one product with the stacked weight matrix" to "a sum of
  products with its bands" are finite-sum regroupings, valid in any commutative additive monoid, so in particular on
  the extended reals with no finiteness assumption (`sum_257`, `sum_256`).
-/
import Idealize.ShloMosaic.PureOps.Ideal
import Idealize.ShloMosaic.Lib.ValueIdx
import proofs.«168866_j68195490726193_2_alg».proof.Proof.LibLogistic

noncomputable section

namespace Cert.Egcl

open Idealize.ShloMosaic Idealize.ShloMosaic.ValueIdx

/-- An R × C matrix of extended reals. -/
abbrev Mat (R C : Nat) : Type := (⟨2, ![R, C]⟩ : Shape).Idx → EReal

/-- silu v = v · σ(v). -/
def silu (v : EReal) : EReal := v * Ideal.logistic v

/-- The logistic function as the quotient 1 / (1 + e^(-v)), with 1 the word of the float 1.0, is σ. -/
theorem silu_quotient (v : EReal) :
    v * Ideal.div (Ideal.ofBits .f32 0x3F800000#32) (Ideal.ofBits .f32 0x3F800000#32 + Ideal.exp (-v)) = silu v := by
  rw [Cert.Logistic.one_div_one_add_exp_neg]; rfl

variable {R R' : Nat}

/-- The first edge layer before its activation, at row p and hidden unit k. -/
def edgeHid (hr hc : Mat R 128) (rad : Mat R 1) (Wr Wc : Mat 128 128) (Wrad b1 : Mat 1 128)
    (p : Fin R) (k : Fin 128) : EReal :=
  (((∑ j : Fin 128, hr (ix2 p j) * Wr (ix2 j k)) + ∑ j : Fin 128, hc (ix2 p j) * Wc (ix2 j k))
    + rad (ix2 p (0 : Fin 1)) * Wrad (ix2 (0 : Fin 1) k)) + b1 (ix2 (0 : Fin 1) k)

/-- The edge message at row p, feature q. -/
def edgeMsgAt (hr hc : Mat R 128) (rad : Mat R 1) (Wr Wc : Mat 128 128) (Wrad b1 : Mat 1 128)
    (W2 : Mat 128 128) (b2 : Mat 1 128) (p : Fin R) (q : Fin 128) : EReal :=
  silu ((∑ k : Fin 128, silu (edgeHid hr hc rad Wr Wc Wrad b1 p k) * W2 (ix2 k q)) + b2 (ix2 (0 : Fin 1) q))

/-- The edge messages as a matrix. -/
def edgeMsg (hr hc : Mat R 128) (rad : Mat R 1) (Wr Wc : Mat 128 128) (Wrad b1 : Mat 1 128)
    (W2 : Mat 128 128) (b2 : Mat 1 128) : Mat R 128 :=
  fun i => edgeMsgAt hr hc rad Wr Wc Wrad b1 W2 b2 (i 0) (i 1)

/-- The scalar coordinate weight of an edge, from its message row. -/
def edgeWtAt (M : Mat R 128) (C1 : Mat 128 128) (c1 : Mat 1 128) (C2 : Mat 128 1) (c2 : Mat 1 1) (p : Fin R) : EReal :=
  (∑ k : Fin 128, silu ((∑ j : Fin 128, M (ix2 p j) * C1 (ix2 j k)) + c1 (ix2 (0 : Fin 1) k)) * C2 (ix2 k (0 : Fin 1)))
    + c2 (ix2 (0 : Fin 1) (0 : Fin 1))

/-- The coordinate weights as a column. -/
def edgeWt (M : Mat R 128) (C1 : Mat 128 128) (c1 : Mat 1 128) (C2 : Mat 128 1) (c2 : Mat 1 1) : Mat R 1 :=
  fun i => edgeWtAt M C1 c1 C2 c2 (i 0)

/-- The node update at row p, feature q. -/
def nodeOutAt (h mi : Mat R 128) (Wh Wm : Mat 128 128) (b1 : Mat 1 128) (W2 : Mat 128 128) (b2 : Mat 1 128)
    (p : Fin R) (q : Fin 128) : EReal :=
  h (ix2 p q) + ((∑ k : Fin 128,
      silu (((∑ j : Fin 128, h (ix2 p j) * Wh (ix2 j k)) + ∑ j : Fin 128, mi (ix2 p j) * Wm (ix2 j k))
        + b1 (ix2 (0 : Fin 1) k)) * W2 (ix2 k q)) + b2 (ix2 (0 : Fin 1) q))

/-- The node update as a matrix. -/
def nodeOut (h mi : Mat R 128) (Wh Wm : Mat 128 128) (b1 : Mat 1 128) (W2 : Mat 128 128) (b2 : Mat 1 128) : Mat R 128 :=
  fun i => nodeOutAt h mi Wh Wm b1 W2 b2 (i 0) (i 1)

theorem edgeMsg_ix2 (hr hc : Mat R 128) (rad : Mat R 1) (Wr Wc : Mat 128 128) (Wrad b1 : Mat 1 128)
    (W2 : Mat 128 128) (b2 : Mat 1 128) (p : Fin R) (q : Fin 128) :
    edgeMsg hr hc rad Wr Wc Wrad b1 W2 b2 (ix2 p q) = edgeMsgAt hr hc rad Wr Wc Wrad b1 W2 b2 p q := rfl

theorem edgeWt_ix2 (M : Mat R 128) (C1 : Mat 128 128) (c1 : Mat 1 128) (C2 : Mat 128 1) (c2 : Mat 1 1)
    (p : Fin R) (u : Fin 1) : edgeWt M C1 c1 C2 c2 (ix2 p u) = edgeWtAt M C1 c1 C2 c2 p := rfl

theorem nodeOut_ix2 (h mi : Mat R 128) (Wh Wm : Mat 128 128) (b1 : Mat 1 128) (W2 : Mat 128 128) (b2 : Mat 1 128)
    (p : Fin R) (q : Fin 128) : nodeOut h mi Wh Wm b1 W2 b2 (ix2 p q) = nodeOutAt h mi Wh Wm b1 W2 b2 p q := rfl

/-! ## Each stage reads one row -/

/-- The edge message at row p only reads row p of hr, hc and rad (also across different row counts). -/
theorem edgeMsgAt_rows (hr hc : Mat R 128) (rad : Mat R 1) (hr' hc' : Mat R' 128) (rad' : Mat R' 1)
    (Wr Wc : Mat 128 128) (Wrad b1 : Mat 1 128) (W2 : Mat 128 128) (b2 : Mat 1 128) (p : Fin R) (p' : Fin R')
    (h1 : ∀ j : Fin 128, hr (ix2 p j) = hr' (ix2 p' j)) (h2 : ∀ j : Fin 128, hc (ix2 p j) = hc' (ix2 p' j))
    (h3 : rad (ix2 p (0 : Fin 1)) = rad' (ix2 p' (0 : Fin 1))) (q : Fin 128) :
    edgeMsgAt hr hc rad Wr Wc Wrad b1 W2 b2 p q = edgeMsgAt hr' hc' rad' Wr Wc Wrad b1 W2 b2 p' q := by
  unfold edgeMsgAt edgeHid
  simp only [h1, h2, h3]

/-- The coordinate weight at row p only reads row p of the messages. -/
theorem edgeWtAt_rows (M : Mat R 128) (M' : Mat R' 128) (C1 : Mat 128 128) (c1 : Mat 1 128) (C2 : Mat 128 1)
    (c2 : Mat 1 1) (p : Fin R) (p' : Fin R') (h1 : ∀ j : Fin 128, M (ix2 p j) = M' (ix2 p' j)) :
    edgeWtAt M C1 c1 C2 c2 p = edgeWtAt M' C1 c1 C2 c2 p' := by
  unfold edgeWtAt
  simp only [h1]

/-- The node update at row p only reads row p of h and mi. -/
theorem nodeOutAt_rows (h mi : Mat R 128) (h' mi' : Mat R' 128) (Wh Wm : Mat 128 128) (b1 : Mat 1 128)
    (W2 : Mat 128 128) (b2 : Mat 1 128) (p : Fin R) (p' : Fin R')
    (h1 : ∀ j : Fin 128, h (ix2 p j) = h' (ix2 p' j)) (h2 : ∀ j : Fin 128, mi (ix2 p j) = mi' (ix2 p' j)) (q : Fin 128) :
    nodeOutAt h mi Wh Wm b1 W2 b2 p q = nodeOutAt h' mi' Wh Wm b1 W2 b2 p' q := by
  unfold nodeOutAt
  simp only [h1, h2]

/-! ## A sum over a stacked axis is the sum over its bands -/

/-- 257 = 128 + 128 + 1. -/
theorem sum_257 {A : Type} [AddCommMonoid A] (f : Fin 257 → A) :
    ∑ k : Fin 257, f k
      = ((∑ j : Fin 128, f ⟨j.val, by omega⟩) + ∑ j : Fin 128, f ⟨128 + j.val, by omega⟩) + f ⟨256, by omega⟩ := by
  rw [Fin.sum_univ_castSucc (n := 256) f]
  congr 1
  exact Fin.sum_univ_add (a := 128) (b := 128) (fun i : Fin (128 + 128) => f (Fin.castSucc (n := 256) i))

/-- 256 = 128 + 128. -/
theorem sum_256 {A : Type} [AddCommMonoid A] (f : Fin 256 → A) :
    ∑ k : Fin 256, f k = (∑ j : Fin 128, f ⟨j.val, by omega⟩) + ∑ j : Fin 128, f ⟨128 + j.val, by omega⟩ :=
  Fin.sum_univ_add (a := 128) (b := 128) (f : Fin (128 + 128) → A)

end Cert.Egcl

end
-- ==== Proof.HostBands.lean ====
/-
  The weight bands and biases the two regions read, as pieces of the arguments.

  The first edge layer's weight matrix has 257 rows: rows 0…127 meet the source features, rows 128…255 the target
  features, row 256 the squared distance.  The host cuts it into these three bands (and converts the first two to
  bf16, the identity on the extended reals); likewise the node layer's 256-row matrix into two bands of 128 rows.
  A bias vector [128] is viewed as one row [1, 128].  Read at an entry: band row j is row (offset + j) of the stacked
  matrix, and the row view of a vector at (0, k) is the vector at k.  No host operation and no region writes an
  argument, so the fold of buffer contents through the program leaves each argument as launched.
-/
import proofs.«168866_j68195490726193_2_alg».proof.Proof.Gen.KernelIdeal.Frame
import Idealize.ShloMosaic.Lib.ValueLayout
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The arguments through the fold -/

/-- Argument 0 is written by no host operation and by no region: the fold leaves it as launched. -/
theorem W2_arg0 (c : Dev nD) : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results_simp <;> rfl

/-- Argument 1 is written by no host operation and by no region: the fold leaves it as launched. -/
theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results_simp <;> rfl

/-- Argument 2 is written by no host operation and by no region: the fold leaves it as launched. -/
theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results_simp <;> rfl

/-- Argument 11 is written by no host operation and by no region: the fold leaves it as launched. -/
theorem W2_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results_simp <;> rfl

/-- Argument 12 is written by no host operation and by no region: the fold leaves it as launched. -/
theorem W2_arg12 (c : Dev nD) : W2 m ρ c (Proc.devRef .tc main_arg12) = m ((c : Thread nD τ).loc main_arg12) := by
  refine (W2_of_ne m ρ c main_arg12 (by decide)).trans ?_
  show StableHlo.after hostOps0 (W0 m ρ c) (Proc.devRef .tc main_arg12) = _
  after_results_simp <;> rfl

/-- Argument 13 is written by no host operation and by no region: the fold leaves it as launched. -/
theorem W2_arg13 (c : Dev nD) : W2 m ρ c (Proc.devRef .tc main_arg13) = m ((c : Thread nD τ).loc main_arg13) := by
  refine (W2_of_ne m ρ c main_arg13 (by decide)).trans ?_
  show StableHlo.after hostOps0 (W0 m ρ c) (Proc.devRef .tc main_arg13) = _
  after_results_simp <;> rfl

/-- Argument 14 is written by no host operation and by no region: the fold leaves it as launched. -/
theorem W2_arg14 (c : Dev nD) : W2 m ρ c (Proc.devRef .tc main_arg14) = m ((c : Thread nD τ).loc main_arg14) := by
  refine (W2_of_ne m ρ c main_arg14 (by decide)).trans ?_
  show StableHlo.after hostOps0 (W0 m ρ c) (Proc.devRef .tc main_arg14) = _
  after_results_simp <;> rfl

/-! ## What the edge region finds in its weight and bias windows -/

theorem V1_v43 (c : Dev nD) :
    (V1 m ρ c main_v43 : S128x128.Idx → EReal) = (truncf (F := Ideal) .bf16 (extractStridedSlice S128x128 ![0, 0] (m ((c : Thread nD τ).loc main_arg3)) slices_S257x128_S128x128_0_0) bitsLt_bf16_f32 : S128x128.Idx → EReal) := by
  show StableHlo.after hostOps0 (W0 m ρ c) (Proc.devRef .tc main_v43) = _
  after_results_simp <;> rfl

theorem V1_v45 (c : Dev nD) :
    (V1 m ρ c main_v45 : S128x128.Idx → EReal) = (truncf (F := Ideal) .bf16 (extractStridedSlice S128x128 ![128, 0] (m ((c : Thread nD τ).loc main_arg3)) slices_S257x128_S128x128_128_0) bitsLt_bf16_f32 : S128x128.Idx → EReal) := by
  show StableHlo.after hostOps0 (W0 m ρ c) (Proc.devRef .tc main_v45) = _
  after_results_simp <;> rfl

theorem V1_v46 (c : Dev nD) :
    (V1 m ρ c main_v46 : S1x128.Idx → EReal) = (extractStridedSlice S1x128 ![256, 0] (m ((c : Thread nD τ).loc main_arg3)) slices_S257x128_S1x128_256_0 : S1x128.Idx → EReal) := by
  show StableHlo.after hostOps0 (W0 m ρ c) (Proc.devRef .tc main_v46) = _
  after_results_simp <;> rfl

theorem V1_v47 (c : Dev nD) :
    (V1 m ρ c main_v47 : S1x128.Idx → EReal) = (shapeCast S1x128 (m ((c : Thread nD τ).loc main_arg4)) shapeCasts_S128_S1x128 : S1x128.Idx → EReal) := by
  show StableHlo.after hostOps0 (W0 m ρ c) (Proc.devRef .tc main_v47) = _
  after_results_simp <;> rfl

theorem V1_v48 (c : Dev nD) :
    (V1 m ρ c main_v48 : S128x128.Idx → EReal) = (truncf (F := Ideal) .bf16 (m ((c : Thread nD τ).loc main_arg5)) bitsLt_bf16_f32 : S128x128.Idx → EReal) := by
  show StableHlo.after hostOps0 (W0 m ρ c) (Proc.devRef .tc main_v48) = _
  after_results_simp <;> rfl

theorem V1_v49 (c : Dev nD) :
    (V1 m ρ c main_v49 : S1x128.Idx → EReal) = (shapeCast S1x128 (m ((c : Thread nD τ).loc main_arg6)) shapeCasts_S128_S1x128 : S1x128.Idx → EReal) := by
  show StableHlo.after hostOps0 (W0 m ρ c) (Proc.devRef .tc main_v49) = _
  after_results_simp <;> rfl

theorem V1_v50 (c : Dev nD) :
    (V1 m ρ c main_v50 : S128x128.Idx → EReal) = (truncf (F := Ideal) .bf16 (m ((c : Thread nD τ).loc main_arg7)) bitsLt_bf16_f32 : S128x128.Idx → EReal) := by
  show StableHlo.after hostOps0 (W0 m ρ c) (Proc.devRef .tc main_v50) = _
  after_results_simp <;> rfl

theorem V1_v51 (c : Dev nD) :
    (V1 m ρ c main_v51 : S1x128.Idx → EReal) = (shapeCast S1x128 (m ((c : Thread nD τ).loc main_arg8)) shapeCasts_S128_S1x128 : S1x128.Idx → EReal) := by
  show StableHlo.after hostOps0 (W0 m ρ c) (Proc.devRef .tc main_v51) = _
  after_results_simp <;> rfl

theorem V1_v52 (c : Dev nD) :
    (V1 m ρ c main_v52 : S128x1.Idx → EReal) = (truncf (F := Ideal) .bf16 (m ((c : Thread nD τ).loc main_arg9)) bitsLt_bf16_f32 : S128x1.Idx → EReal) := by
  show StableHlo.after hostOps0 (W0 m ρ c) (Proc.devRef .tc main_v52) = _
  after_results_simp <;> rfl

theorem V1_v53 (c : Dev nD) :
    (V1 m ρ c main_v53 : S1x1.Idx → EReal) = (shapeCast S1x1 (m ((c : Thread nD τ).loc main_arg10)) shapeCasts_S1_S1x1 : S1x1.Idx → EReal) := by
  show StableHlo.after hostOps0 (W0 m ρ c) (Proc.devRef .tc main_v53) = _
  after_results_simp <;> rfl

/-! ## What the node region finds in its weight and bias windows -/

theorem V3_v65 (c : Dev nD) :
    (V3 m ρ c main_v65 : S128x128.Idx → EReal) = (truncf (F := Ideal) .bf16 (extractStridedSlice S128x128 ![0, 0] (W2 m ρ c (Proc.devRef .tc main_arg11)) slices_S256x128_S128x128_0_0) bitsLt_bf16_f32 : S128x128.Idx → EReal) := by
  show StableHlo.after hostOps1 (W2 m ρ c) (Proc.devRef .tc main_v65) = _
  after_results_simp <;> rfl

theorem V3_v67 (c : Dev nD) :
    (V3 m ρ c main_v67 : S128x128.Idx → EReal) = (truncf (F := Ideal) .bf16 (extractStridedSlice S128x128 ![128, 0] (W2 m ρ c (Proc.devRef .tc main_arg11)) slices_S256x128_S128x128_128_0) bitsLt_bf16_f32 : S128x128.Idx → EReal) := by
  show StableHlo.after hostOps1 (W2 m ρ c) (Proc.devRef .tc main_v67) = _
  after_results_simp <;> rfl

theorem V3_v68 (c : Dev nD) :
    (V3 m ρ c main_v68 : S1x128.Idx → EReal) = (shapeCast S1x128 (W2 m ρ c (Proc.devRef .tc main_arg12)) shapeCasts_S128_S1x128 : S1x128.Idx → EReal) := by
  show StableHlo.after hostOps1 (W2 m ρ c) (Proc.devRef .tc main_v68) = _
  after_results_simp <;> rfl

theorem V3_v69 (c : Dev nD) :
    (V3 m ρ c main_v69 : S128x128.Idx → EReal) = (truncf (F := Ideal) .bf16 (W2 m ρ c (Proc.devRef .tc main_arg13)) bitsLt_bf16_f32 : S128x128.Idx → EReal) := by
  show StableHlo.after hostOps1 (W2 m ρ c) (Proc.devRef .tc main_v69) = _
  after_results_simp <;> rfl

theorem V3_v70 (c : Dev nD) :
    (V3 m ρ c main_v70 : S1x128.Idx → EReal) = (shapeCast S1x128 (W2 m ρ c (Proc.devRef .tc main_arg14)) shapeCasts_S128_S1x128 : S1x128.Idx → EReal) := by
  show StableHlo.after hostOps1 (W2 m ρ c) (Proc.devRef .tc main_v70) = _
  after_results_simp <;> rfl

/-! ## The bands at an entry -/

/-- Rows 0…127 of the first edge layer's weights. -/
theorem Wr_at (c : Dev nD) (j k : Fin 128) :
    (V1 m ρ c main_v43 : S128x128.Idx → EReal) (ix2 j k) = ((m ((c : Thread nD τ).loc main_arg3)) : S257x128.Idx → EReal) (ix2 (⟨j.val, by omega⟩ : Fin 257) k) := by
  rw [V1_v43]
  exact slice2_axis0_apply 0 (m ((c : Thread nD τ).loc main_arg3)) slices_S257x128_S128x128_0_0 j k ⟨j.val, by omega⟩ (Nat.zero_add _).symm

/-- Rows 128…255. -/
theorem Wc_at (c : Dev nD) (j k : Fin 128) :
    (V1 m ρ c main_v45 : S128x128.Idx → EReal) (ix2 j k) = ((m ((c : Thread nD τ).loc main_arg3)) : S257x128.Idx → EReal) (ix2 (⟨128 + j.val, by omega⟩ : Fin 257) k) := by
  rw [V1_v45]
  exact slice2_axis0_apply 128 (m ((c : Thread nD τ).loc main_arg3)) slices_S257x128_S128x128_128_0 j k ⟨128 + j.val, by omega⟩ rfl

/-- Row 256. -/
theorem Wrad_at (c : Dev nD) (k : Fin 128) :
    (V1 m ρ c main_v46 : S1x128.Idx → EReal) (ix2 (0 : Fin 1) k) = ((m ((c : Thread nD τ).loc main_arg3)) : S257x128.Idx → EReal) (ix2 (⟨256, by omega⟩ : Fin 257) k) := by
  rw [V1_v46]
  exact slice2_axis0_apply 256 _ _ (0 : Fin 1) k ⟨256, by omega⟩ rfl

theorem be1_at (c : Dev nD) (k : Fin 128) :
    (V1 m ρ c main_v47 : S1x128.Idx → EReal) (ix2 (0 : Fin 1) k) = ((m ((c : Thread nD τ).loc main_arg4)) : S128.Idx → EReal) (ix1 k) := by
  rw [V1_v47]; exact shapeCast_a_1a_apply _ _ (0 : Fin 1) k

theorem be2_at (c : Dev nD) (k : Fin 128) :
    (V1 m ρ c main_v49 : S1x128.Idx → EReal) (ix2 (0 : Fin 1) k) = ((m ((c : Thread nD τ).loc main_arg6)) : S128.Idx → EReal) (ix1 k) := by
  rw [V1_v49]; exact shapeCast_a_1a_apply _ _ (0 : Fin 1) k

theorem bc1_at (c : Dev nD) (k : Fin 128) :
    (V1 m ρ c main_v51 : S1x128.Idx → EReal) (ix2 (0 : Fin 1) k) = ((m ((c : Thread nD τ).loc main_arg8)) : S128.Idx → EReal) (ix1 k) := by
  rw [V1_v51]; exact shapeCast_a_1a_apply _ _ (0 : Fin 1) k

theorem bc2_at (c : Dev nD) :
    (V1 m ρ c main_v53 : S1x1.Idx → EReal) (ix2 (0 : Fin 1) (0 : Fin 1)) = ((m ((c : Thread nD τ).loc main_arg10)) : S1.Idx → EReal) (ix1 (0 : Fin 1)) := by
  rw [V1_v53]; exact shapeCast_a_1a_apply _ _ (0 : Fin 1) (0 : Fin 1)

/-- The full-matrix weights: a conversion to bf16 is the identity on the extended reals. -/
theorem We2_eq (c : Dev nD) : (V1 m ρ c main_v48 : S128x128.Idx → EReal) = (m ((c : Thread nD τ).loc main_arg5)) := V1_v48 m ρ c
theorem Wc1_eq (c : Dev nD) : (V1 m ρ c main_v50 : S128x128.Idx → EReal) = (m ((c : Thread nD τ).loc main_arg7)) := V1_v50 m ρ c
theorem Wc2_eq (c : Dev nD) : (V1 m ρ c main_v52 : S128x1.Idx → EReal) = (m ((c : Thread nD τ).loc main_arg9)) := V1_v52 m ρ c

/-- Rows 0…127 of the node layer's weights. -/
theorem Wh_at (c : Dev nD) (j k : Fin 128) :
    (V3 m ρ c main_v65 : S128x128.Idx → EReal) (ix2 j k) = ((m ((c : Thread nD τ).loc main_arg11)) : S256x128.Idx → EReal) (ix2 (⟨j.val, by omega⟩ : Fin 256) k) := by
  rw [V3_v65, W2_arg11]
  exact slice2_axis0_apply 0 (m ((c : Thread nD τ).loc main_arg11)) slices_S256x128_S128x128_0_0 j k ⟨j.val, by omega⟩ (Nat.zero_add _).symm

/-- Rows 128…255. -/
theorem Wm_at (c : Dev nD) (j k : Fin 128) :
    (V3 m ρ c main_v67 : S128x128.Idx → EReal) (ix2 j k) = ((m ((c : Thread nD τ).loc main_arg11)) : S256x128.Idx → EReal) (ix2 (⟨128 + j.val, by omega⟩ : Fin 256) k) := by
  rw [V3_v67, W2_arg11]
  exact slice2_axis0_apply 128 (m ((c : Thread nD τ).loc main_arg11)) slices_S256x128_S128x128_128_0 j k ⟨128 + j.val, by omega⟩ rfl

theorem bn1_at (c : Dev nD) (k : Fin 128) :
    (V3 m ρ c main_v68 : S1x128.Idx → EReal) (ix2 (0 : Fin 1) k) = ((m ((c : Thread nD τ).loc main_arg12)) : S128.Idx → EReal) (ix1 k) := by
  rw [V3_v68, W2_arg12]; exact shapeCast_a_1a_apply _ _ (0 : Fin 1) k

theorem bn2_at (c : Dev nD) (k : Fin 128) :
    (V3 m ρ c main_v70 : S1x128.Idx → EReal) (ix2 (0 : Fin 1) k) = ((m ((c : Thread nD τ).loc main_arg14)) : S128.Idx → EReal) (ix1 k) := by
  rw [V3_v70, W2_arg14]; exact shapeCast_a_1a_apply _ _ (0 : Fin 1) k

theorem Wn2_eq (c : Dev nD) : (V3 m ρ c main_v69 : S128x128.Idx → EReal) = (m ((c : Thread nD τ).loc main_arg13)) := by
  rw [V3_v69, W2_arg13]; rfl

/-- The node region's first window is the feature argument itself. -/
theorem V3_arg0 (c : Dev nD) : (V3 m ρ c main_arg0 : S50000x128.Idx → EReal) = (m ((c : Thread nD τ).loc main_arg0)) := by
  refine Eq.trans ?_ (W2_arg0 m ρ c)
  show StableHlo.after hostOps1 (W2 m ρ c) (Proc.devRef .tc main_arg0) = _
  after_results_simp

end Cert.KernelIdeal.HostValue

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.EdgePayload.lean ====
/-
  The edge region's body, read at an entry.

  On a block of 4000 edge rows the body computes, from the gathered feature blocks hr, hc (bf16 words read as the reals
  they denote), the squared distances rad and the weight bands,

      hid = (hr·Wr + hc·Wc) + rad ⊗ Wrad + b1,     msg = silu (silu hid · W2 + b2),
      wt  = silu (msg · C1 + c1) · C2 + c2,

  every product a matrix-unit product into zeros, every bias a row repeated down the block, rad a column repeated
  across it.  Entry by entry these are the specification's `edgeMsgAt` and `edgeWtAt` of the block's operands: a
  matrix product at (p, q) is the inner product of row p with column q, a repeated row at (p, q) is its entry q, a
  repeated column its entry p, and v · σ(v) is silu v.
-/
import proofs.«168866_j68195490726193_2_alg».proof.Proof.Gen.KernelIdeal.Skeleton
import proofs.«168866_j68195490726193_2_alg».proof.Proof.Spec
import proofs.«168866_j68195490726193_2_alg».proof.Proof.LibMatmulNN
import proofs.«168866_j68195490726193_2_alg».proof.Proof.LibKeepdimsColumn
import Idealize.ShloMosaic.Lib.Pipeline.Value
import Idealize.ShloMosaic.Lib.ValueLayout

noncomputable section

namespace Cert.KernelIdeal.EdgeValue

open Cert.KernelIdeal Cert.KernelIdeal.Gen Cert.Egcl
open Idealize.ShloMosaic Idealize.ShloMosaic.ValueIdx

/-- v · σ(v) at an entry. -/
theorem silu_at {s : Shape} (A : FVec Ideal s .f32) (i : s.Idx) : mulf A (logistic A) i = silu (A i) := rfl

/-- A matrix plus a row repeated down its rows, at (p, q). -/
theorem add_row_at {a b : Nat} (A : FVec Ideal ⟨2, ![a, b]⟩ .f32) (r : FVec Ideal ⟨2, ![1, b]⟩ .f32)
    (h : (⟨2, ![1, b]⟩ : Shape).Broadcasts ⟨2, ![a, b]⟩) (p : Fin a) (q : Fin b) :
    addf A (broadcastTo ⟨2, ![a, b]⟩ r h) (ix2 p q) = A (ix2 p q) + r (ix2 (0 : Fin 1) q) := by
  rw [addf_apply, broadcastTo_1b_ab_apply]

/-- A column repeated across times a row repeated down, at (p, q). -/
theorem col_mul_row_at {a b : Nat} (c : FVec Ideal ⟨2, ![a, 1]⟩ .f32) (r : FVec Ideal ⟨2, ![1, b]⟩ .f32)
    (hc : (⟨2, ![a, 1]⟩ : Shape).Broadcasts ⟨2, ![a, b]⟩) (hr : (⟨2, ![1, b]⟩ : Shape).Broadcasts ⟨2, ![a, b]⟩)
    (p : Fin a) (q : Fin b) :
    mulf (broadcastTo ⟨2, ![a, b]⟩ c hc) (broadcastTo ⟨2, ![a, b]⟩ r hr) (ix2 p q)
      = c (ix2 p (0 : Fin 1)) * r (ix2 (0 : Fin 1) q) := by
  rw [mulf_apply, Cert.KeepdimsColumn.broadcastTo_a1_ab_apply, broadcastTo_1b_ab_apply]

/-- A product on the matrix unit of a matrix rounded to bf16 (the identity on the reals it denotes) with a weight
    matrix, into zeros, at (p, q). -/
theorem mm_at {a k b : Nat} (D : DotDims ⟨2, ![a, k]⟩ ⟨2, ![k, b]⟩ ⟨2, ![a, b]⟩) (hD : D = DotDims.plain a k b)
    (X : FVec Ideal ⟨2, ![a, k]⟩ .f32) (hX : FTy.bf16.bits < FTy.f32.bits) (W : FVec Ideal ⟨2, ![k, b]⟩ .bf16)
    (p : Fin a) (q : Fin b) :
    matmul D none (truncf .bf16 X hX) W (constant (F := Ideal) ⟨2, ![a, b]⟩ .f32 0x00000000#32) (ix2 p q)
      = ∑ j : Fin k, X (ix2 p j) * W (ix2 j q) :=
  Cert.MatmulNN.matmul_zero_apply D hD none (truncf .bf16 X hX) W p q

/-- The same for operands that are bf16 already. -/
theorem mm16_at {a k b : Nat} (D : DotDims ⟨2, ![a, k]⟩ ⟨2, ![k, b]⟩ ⟨2, ![a, b]⟩) (hD : D = DotDims.plain a k b)
    (X : FVec Ideal ⟨2, ![a, k]⟩ .bf16) (W : FVec Ideal ⟨2, ![k, b]⟩ .bf16) (p : Fin a) (q : Fin b) :
    matmul D none X W (constant (F := Ideal) ⟨2, ![a, b]⟩ .f32 0x00000000#32) (ix2 p q)
      = ∑ j : Fin k, X (ix2 p j) * W (ix2 j q) :=
  Cert.MatmulNN.matmul_zero_apply D hD none X W p q

/-- The message payload at (p, q) is the specification's edge message of the block's operands. -/
theorem msg_at (x0 x1 : FVec Ideal S4000x128 .bf16) (x2 : FVec Ideal S4000x1 .f32) (x3 x4 : FVec Ideal S128x128 .bf16)
    (x5 x6 : FVec Ideal S1x128 .f32) (x7 : FVec Ideal S128x128 .bf16) (x8 : FVec Ideal S1x128 .f32)
    (p : Fin 4000) (q : Fin 128) :
    k0_pay2 (F := Ideal) x0 x1 x2 x3 x4 x5 x6 x7 x8 (ix2 p q) = edgeMsgAt x0 x1 x2 x3 x4 x5 x6 x7 x8 p q := by
  unfold k0_pay2 edgeMsgAt edgeHid
  simp only [shapeCast_self]
  refine (silu_at _ _).trans (congrArg silu ?_)
  refine (add_row_at _ _ _ p q).trans (congrArg (· + x8 (ix2 (0 : Fin 1) q)) ?_)
  refine (mm_at _ rfl _ _ _ p q).trans (Finset.sum_congr rfl fun k _ => congrArg (· * x7 (ix2 k q)) ?_)
  refine (silu_at _ _).trans (congrArg silu ?_)
  refine (add_row_at _ _ _ p k).trans (congrArg (· + x6 (ix2 (0 : Fin 1) k)) ?_)
  refine (addf_apply _ _ _).trans ?_
  refine congrArg₂ (· + ·) ?_ (col_mul_row_at _ _ _ _ p k)
  refine (addf_apply _ _ _).trans ?_
  exact congrArg₂ (· + ·) (mm16_at _ rfl x0 x3 p k) (mm16_at _ rfl x1 x4 p k)

/-- The weight payload at (p, 0) is the specification's coordinate weight of the block's messages. -/
theorem wt_at (M : FVec Ideal S4000x128 .f32) (x9 : FVec Ideal S128x128 .bf16) (x10 : FVec Ideal S1x128 .f32)
    (x11 : FVec Ideal S128x1 .bf16) (x12 : FVec Ideal S1x1 .f32) (p : Fin 4000) (u : Fin 1) :
    k0_pay1 (F := Ideal) M x9 x10 x11 x12 (ix2 p u) = edgeWtAt M x9 x10 x11 x12 p := by
  obtain rfl : u = 0 := Subsingleton.elim _ _
  unfold k0_pay1 edgeWtAt
  simp only [shapeCast_self]
  refine (add_row_at _ _ _ p (0 : Fin 1)).trans (congrArg (· + x12 (ix2 (0 : Fin 1) (0 : Fin 1))) ?_)
  refine (mm_at _ rfl _ _ _ p (0 : Fin 1)).trans (Finset.sum_congr rfl fun k _ => congrArg (· * x11 (ix2 k (0 : Fin 1))) ?_)
  refine (silu_at _ _).trans (congrArg silu ?_)
  refine (add_row_at _ _ _ p k).trans (congrArg (· + x10 (ix2 (0 : Fin 1) k)) ?_)
  exact mm_at _ rfl M _ x9 p k

end Cert.KernelIdeal.EdgeValue

end
-- ==== Proof.EdgeValue.lean ====
/-
  What the edge region leaves in its two output arrays.

  The region visits 150 points; point t stages rows 4000·t … 4000·t + 3999 of the gathered features hr, hc and of the
  squared distances rad, and the whole of every weight band and bias (one block each, the same at every point), and
  writes back rows 4000·t … of the message array and of the weight column.  The body's result on a block is the
  specification's formula of the block's operands (the payload module), and that formula reads, for output row p,
  only row p of hr, hc, rad: so block t of the output is block t of the one whole-array function
  `edgeMsg hr hc rad …` (resp. `edgeWt (edgeMsg …) …`).  The 150 blocks tile the 600000 rows (row r is in block
  r / 4000), so after the region each output array IS that function of the arrays the region found.
-/
import proofs.«168866_j68195490726193_2_alg».proof.Proof.Gen.KernelIdeal.Frame
import proofs.«168866_j68195490726193_2_alg».proof.Proof.EdgePayload
import Idealize.ShloMosaic.Lib.Pipeline.Value

set_option maxRecDepth 16384

noncomputable section

namespace Cert.KernelIdeal.EdgeValue

open Cert.KernelIdeal Cert.KernelIdeal.Gen Cert.Egcl
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0). -/
theorem idx_moving : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

/-- The printed index maps over the grid: every weight and bias window stays at block (0, 0). -/
theorem idx_fixed : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- The two output windows' index maps. -/
theorem idx13 (t : Fin cfg0.N) : win0_13.index t (0 : Fin 2) = t.val ∧ win0_13.index t (1 : Fin 2) = 0 := (idx_moving t).2.2.2.1
theorem idx14 (t : Fin cfg0.N) : win0_14.index t (0 : Fin 2) = t.val ∧ win0_14.index t (1 : Fin 2) = 0 := (idx_moving t).2.2.2.2

/-- Window 3 is one block: at every point it is the whole array. -/
theorem wblk3 (c : Dev nD) (t : Fin cfg0.N) : iblk0 V c 3 t = (V c main_v43 : S128x128.Idx → EReal) := by
  have h := idx_fixed t
  obtain ⟨e0, e1⟩ := h.1
  funext y
  unfold iblk0
  rw [View.read_apply]
  show V c main_v43 _ = V c main_v43 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Window 4 is one block: at every point it is the whole array. -/
theorem wblk4 (c : Dev nD) (t : Fin cfg0.N) : iblk0 V c 4 t = (V c main_v45 : S128x128.Idx → EReal) := by
  have h := idx_fixed t
  obtain ⟨e0, e1⟩ := h.2.1
  funext y
  unfold iblk0
  rw [View.read_apply]
  show V c main_v45 _ = V c main_v45 y
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Window 5 is one block: at every point it is the whole array. -/
theorem wblk5 (c : Dev nD) (t : Fin cfg0.N) : iblk0 V c 5 t = (V c main_v46 : S1x128.Idx → EReal) := by
  have h := idx_fixed t
  obtain ⟨e0, e1⟩ := h.2.2.1
  funext y
  unfold iblk0
  rw [View.read_apply]
  show V c main_v46 _ = V c main_v46 y
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Window 6 is one block: at every point it is the whole array. -/
theorem wblk6 (c : Dev nD) (t : Fin cfg0.N) : iblk0 V c 6 t = (V c main_v47 : S1x128.Idx → EReal) := by
  have h := idx_fixed t
  obtain ⟨e0, e1⟩ := h.2.2.2.1
  funext y
  unfold iblk0
  rw [View.read_apply]
  show V c main_v47 _ = V c main_v47 y
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Window 7 is one block: at every point it is the whole array. -/
theorem wblk7 (c : Dev nD) (t : Fin cfg0.N) : iblk0 V c 7 t = (V c main_v48 : S128x128.Idx → EReal) := by
  have h := idx_fixed t
  obtain ⟨e0, e1⟩ := h.2.2.2.2.1
  funext y
  unfold iblk0
  rw [View.read_apply]
  show V c main_v48 _ = V c main_v48 y
  refine congrArg _ (funext fun a => Fin.ext ?_)
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

/-- Window 8 is one block: at every point it is the whole array. -/
theorem wblk8 (c : Dev nD) (t : Fin cfg0.N) : iblk0 V c 8 t = (V c main_v49 : S1x128.Idx → EReal) := by
  have h := idx_fixed t
  obtain ⟨e0, e1⟩ := h.2.2.2.2.2.1
  funext y
  unfold iblk0
  rw [View.read_apply]
  show V c main_v49 _ = V c main_v49 y
  refine congrArg _ (funext fun a => Fin.ext ?_)
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- Window 9 is one block: at every point it is the whole array. -/
theorem wblk9 (c : Dev nD) (t : Fin cfg0.N) : iblk0 V c 9 t = (V c main_v50 : S128x128.Idx → EReal) := by
  have h := idx_fixed t
  obtain ⟨e0, e1⟩ := h.2.2.2.2.2.2.1
  funext y
  unfold iblk0
  rw [View.read_apply]
  show V c main_v50 _ = V c main_v50 y
  refine congrArg _ (funext fun a => Fin.ext ?_)
  match a with
  | ⟨0, _⟩ => show win0_9.index t (0 : Fin 2) * 128 + 1 * (y 0).val = (y 0).val; rw [e0]; omega
  | ⟨1, _⟩ => show win0_9.index t (1 : Fin 2) * 128 + 1 * (y 1).val = (y 1).val; rw [e1]; omega

/-- Window 10 is one block: at every point it is the whole array. -/
theorem wblk10 (c : Dev nD) (t : Fin cfg0.N) : iblk0 V c 10 t = (V c main_v51 : S1x128.Idx → EReal) := by
  have h := idx_fixed t
  obtain ⟨e0, e1⟩ := h.2.2.2.2.2.2.2.1
  funext y
  unfold iblk0
  rw [View.read_apply]
  show V c main_v51 _ = V c main_v51 y
  refine congrArg _ (funext fun a => Fin.ext ?_)
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

/-- Window 11 is one block: at every point it is the whole array. -/
theorem wblk11 (c : Dev nD) (t : Fin cfg0.N) : iblk0 V c 11 t = (V c main_v52 : S128x1.Idx → EReal) := by
  have h := idx_fixed t
  obtain ⟨e0, e1⟩ := h.2.2.2.2.2.2.2.2.1
  funext y
  unfold iblk0
  rw [View.read_apply]
  show V c main_v52 _ = V c main_v52 y
  refine congrArg _ (funext fun a => Fin.ext ?_)
  match a with
  | ⟨0, _⟩ => show win0_11.index t (0 : Fin 2) * 128 + 1 * (y 0).val = (y 0).val; rw [e0]; omega
  | ⟨1, _⟩ => show win0_11.index t (1 : Fin 2) * 1 + 1 * (y 1).val = (y 1).val; rw [e1]; omega

/-- Window 12 is one block: at every point it is the whole array. -/
theorem wblk12 (c : Dev nD) (t : Fin cfg0.N) : iblk0 V c 12 t = (V c main_v53 : S1x1.Idx → EReal) := by
  have h := idx_fixed t
  obtain ⟨e0, e1⟩ := h.2.2.2.2.2.2.2.2.2
  funext y
  unfold iblk0
  rw [View.read_apply]
  show V c main_v53 _ = V c main_v53 y
  refine congrArg _ (funext fun a => Fin.ext ?_)
  match a with
  | ⟨0, _⟩ => show win0_12.index t (0 : Fin 2) * 1 + 1 * (y 0).val = (y 0).val; rw [e0]; omega
  | ⟨1, _⟩ => show win0_12.index t (1 : Fin 2) * 1 + 1 * (y 1).val = (y 1).val; rw [e1]; omega

/-- Window 0's block at point t is rows 4000·t … 4000·t + 3999 of its array. -/
theorem rblk0 (c : Dev nD) (t : Fin cfg0.N) (y : S4000x128.Idx) (k : S600000x128.Idx)
    (hk0 : (k 0).val = 4000 * t.val + (y 0).val) (hk1 : (k 1).val = (y 1).val) :
    (iblk0 V c 0 t : S4000x128.Idx → EReal) y = (V c main_v11 : S600000x128.Idx → EReal) k := by
  have h := idx_moving t
  obtain ⟨e0, e1⟩ := h.1
  unfold iblk0
  rw [View.read_apply]
  show V c main_v11 _ = V c main_v11 k
  refine congrArg _ (funext fun a => Fin.ext ?_)
  match a with
  | ⟨0, _⟩ => show win0_0.index t (0 : Fin 2) * 4000 + 1 * (y 0).val = (k 0).val; rw [e0, hk0]; omega
  | ⟨1, _⟩ => show win0_0.index t (1 : Fin 2) * 128 + 1 * (y 1).val = (k 1).val; rw [e1, hk1]; omega

/-- Window 1's block at point t is rows 4000·t … 4000·t + 3999 of its array. -/
theorem rblk1 (c : Dev nD) (t : Fin cfg0.N) (y : S4000x128.Idx) (k : S600000x128.Idx)
    (hk0 : (k 0).val = 4000 * t.val + (y 0).val) (hk1 : (k 1).val = (y 1).val) :
    (iblk0 V c 1 t : S4000x128.Idx → EReal) y = (V c main_v18 : S600000x128.Idx → EReal) k := by
  have h := idx_moving t
  obtain ⟨e0, e1⟩ := h.2.1
  unfold iblk0
  rw [View.read_apply]
  show V c main_v18 _ = V c main_v18 k
  refine congrArg _ (funext fun a => Fin.ext ?_)
  match a with
  | ⟨0, _⟩ => show win0_1.index t (0 : Fin 2) * 4000 + 1 * (y 0).val = (k 0).val; rw [e0, hk0]; omega
  | ⟨1, _⟩ => show win0_1.index t (1 : Fin 2) * 128 + 1 * (y 1).val = (k 1).val; rw [e1, hk1]; omega

/-- Window 2's block at point t is rows 4000·t … 4000·t + 3999 of its array. -/
theorem rblk2 (c : Dev nD) (t : Fin cfg0.N) (y : S4000x1.Idx) (k : S600000x1.Idx)
    (hk0 : (k 0).val = 4000 * t.val + (y 0).val) (hk1 : (k 1).val = (y 1).val) :
    (iblk0 V c 2 t : S4000x1.Idx → EReal) y = (V c main_v36 : S600000x1.Idx → EReal) k := by
  have h := idx_moving t
  obtain ⟨e0, e1⟩ := h.2.2.1
  unfold iblk0
  rw [View.read_apply]
  show V c main_v36 _ = V c main_v36 k
  refine congrArg _ (funext fun a => Fin.ext ?_)
  match a with
  | ⟨0, _⟩ => show win0_2.index t (0 : Fin 2) * 4000 + 1 * (y 0).val = (k 0).val; rw [e0, hk0]; omega
  | ⟨1, _⟩ => show win0_2.index t (1 : Fin 2) * 1 + 1 * (y 1).val = (k 1).val; rw [e1, hk1]; omega

/-! ## Over variables: a block whose rows are rows of the arrays -/

/-- The message payload of a block, at any block index whose row p is row P of the arrays. -/
theorem msg_block (x0 x1 : FVec Ideal S4000x128 .bf16) (x2 : FVec Ideal S4000x1 .f32) (x3 x4 : FVec Ideal S128x128 .bf16)
    (x5 x6 : FVec Ideal S1x128 .f32) (x7 : FVec Ideal S128x128 .bf16) (x8 : FVec Ideal S1x128 .f32)
    (hr hc : Mat 600000 128) (rad : Mat 600000 1) (w3 w4 : Mat 128 128) (w5 w6 : Mat 1 128) (w7 : Mat 128 128) (w8 : Mat 1 128)
    (e3 : x3 = w3) (e4 : x4 = w4) (e5 : x5 = w5) (e6 : x6 = w6) (e7 : x7 = w7) (e8 : x8 = w8)
    (y : S4000x128.Idx) (P : Fin 600000) (q : Fin 128) (hq : q = y 1)
    (h0 : ∀ j : Fin 128, x0 (ix2 (y 0) j) = hr (ix2 P j)) (h1 : ∀ j : Fin 128, x1 (ix2 (y 0) j) = hc (ix2 P j))
    (h2 : x2 (ix2 (y 0) (0 : Fin 1)) = rad (ix2 P (0 : Fin 1))) :
    k0_pay2 (F := Ideal) x0 x1 x2 x3 x4 x5 x6 x7 x8 y = edgeMsgAt hr hc rad w3 w4 w5 w6 w7 w8 P q := by
  subst e3 e4 e5 e6 e7 e8 hq
  refine (congrArg _ (eq_ix2 y)).trans ?_
  refine (msg_at _ _ _ _ _ _ _ _ _ (y 0) (y 1)).trans ?_
  exact edgeMsgAt_rows _ _ _ _ _ _ _ _ _ _ _ _ (y 0) P h0 h1 h2 (y 1)

/-- The weight payload of a block, at any block index whose row is row P of the arrays. -/
theorem wt_block (x0 x1 : FVec Ideal S4000x128 .bf16) (x2 : FVec Ideal S4000x1 .f32) (x3 x4 : FVec Ideal S128x128 .bf16)
    (x5 x6 : FVec Ideal S1x128 .f32) (x7 : FVec Ideal S128x128 .bf16) (x8 : FVec Ideal S1x128 .f32)
    (x9 : FVec Ideal S128x128 .bf16) (x10 : FVec Ideal S1x128 .f32) (x11 : FVec Ideal S128x1 .bf16) (x12 : FVec Ideal S1x1 .f32)
    (hr hc : Mat 600000 128) (rad : Mat 600000 1) (w3 w4 : Mat 128 128) (w5 w6 : Mat 1 128) (w7 : Mat 128 128) (w8 : Mat 1 128)
    (w9 : Mat 128 128) (w10 : Mat 1 128) (w11 : Mat 128 1) (w12 : Mat 1 1)
    (e3 : x3 = w3) (e4 : x4 = w4) (e5 : x5 = w5) (e6 : x6 = w6) (e7 : x7 = w7) (e8 : x8 = w8)
    (e9 : x9 = w9) (e10 : x10 = w10) (e11 : x11 = w11) (e12 : x12 = w12)
    (y : S4000x1.Idx) (P : Fin 600000)
    (h0 : ∀ j : Fin 128, x0 (ix2 (y 0) j) = hr (ix2 P j)) (h1 : ∀ j : Fin 128, x1 (ix2 (y 0) j) = hc (ix2 P j))
    (h2 : x2 (ix2 (y 0) (0 : Fin 1)) = rad (ix2 P (0 : Fin 1))) :
    k0_pay1 (F := Ideal) (k0_pay2 (F := Ideal) x0 x1 x2 x3 x4 x5 x6 x7 x8) x9 x10 x11 x12 y
      = edgeWtAt (edgeMsg hr hc rad w3 w4 w5 w6 w7 w8) w9 w10 w11 w12 P := by
  subst e3 e4 e5 e6 e7 e8 e9 e10 e11 e12
  refine (congrArg _ (eq_ix2 y)).trans ?_
  refine (wt_at _ _ _ _ _ (y 0) (y 1)).trans ?_
  refine edgeWtAt_rows _ _ _ _ _ _ (y 0) P fun j => ?_
  refine (msg_at _ _ _ _ _ _ _ _ _ (y 0) j).trans ?_
  exact edgeMsgAt_rows _ _ _ _ _ _ _ _ _ _ _ _ (y 0) P h0 h1 h2 j

/-! ## What the body leaves, and what each point writes back -/

/-- The message buffer after the body at point t: the message payload of the point's blocks. -/
theorem after13_eq (c : Dev nD) (t : Fin cfg0.N) :
    (dat0 (F := Ideal) V c).after 13 t = k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) := by
  rw [after0_13]
  unfold out0_13
  rw [View.canon_unit_zero hz]
  simp only [View.ld_unit_zero (S := S4000x128) hz, View.ld_unit_zero (S := S4000x1) hz,
    View.ld_unit_zero (S := S128x128) hz, View.ld_unit_zero (S := S1x128) hz]

/-- The weight buffer after the body at point t: the weight payload of the point's blocks. -/
theorem after14_eq (c : Dev nD) (t : Fin cfg0.N) :
    (dat0 (F := Ideal) V c).after 14 t
      = k0_pay1 (F := Ideal) (k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) (iblk0 V c 9 t) (iblk0 V c 10 t) (iblk0 V c 11 t) (iblk0 V c 12 t) := by
  rw [after0_14]
  unfold out0_14
  rw [View.canon_unit_zero hz]
  simp only [View.ld_unit_zero (S := S4000x128) hz, View.ld_unit_zero (S := S4000x1) hz,
    View.ld_unit_zero (S := S128x128) hz, View.ld_unit_zero (S := S1x128) hz,
    View.ld_unit_zero (S := S128x1) hz, View.ld_unit_zero (S := S1x1) hz]

/-- WHAT POINT t WRITES BACK to the message array is block t of the whole-array message function. -/
theorem flushed13 (c : Dev nD) (t : Fin cfg0.N) :
    (dat0 (F := Ideal) V c).flushed 13 t = ((cfg0.win 13).blk t).view.read (Elt Ideal)
      (edgeMsg (V c main_v11) (V c main_v18) (V c main_v36) (V c main_v43) (V c main_v45) (V c main_v46) (V c main_v47) (V c main_v48) (V c main_v49)) := by
  obtain ⟨e0, e1⟩ := idx13 t
  show (cfg0.win 13).cut (grid0.coords t) ((dat0 V c).after 13 t) = _
  rw [after13_eq V c t]
  funext y
  rw [View.read_apply]
  have hP : ((((cfg0.win 13).blk t).view.emb y) 0).val = 4000 * t.val + (y 0).val := by
    show win0_13.index t (0 : Fin 2) * 4000 + 1 * (y 0).val = 4000 * t.val + (y 0).val; rw [e0]; omega
  have hq : (((cfg0.win 13).blk t).view.emb y) 1 = (y 1) :=
    Fin.ext (by show win0_13.index t (1 : Fin 2) * 128 + 1 * (y 1).val = (y 1).val; rw [e1]; omega)
  exact msg_block (iblk0 V c 0 t) (iblk0 V c 1 t) (iblk0 V c 2 t) (iblk0 V c 3 t) (iblk0 V c 4 t) (iblk0 V c 5 t) (iblk0 V c 6 t) (iblk0 V c 7 t) (iblk0 V c 8 t) (V c main_v11) (V c main_v18) (V c main_v36) (V c main_v43) (V c main_v45) (V c main_v46) (V c main_v47) (V c main_v48) (V c main_v49)
    (wblk3 V c t) (wblk4 V c t) (wblk5 V c t) (wblk6 V c t) (wblk7 V c t) (wblk8 V c t)
    ((cfg0.win 13).xinj (grid0.coords t) y) ((((cfg0.win 13).blk t).view.emb y) 0) ((((cfg0.win 13).blk t).view.emb y) 1) hq
    (fun j => rblk0 V c t _ _ hP rfl) (fun j => rblk1 V c t _ _ hP rfl) (rblk2 V c t _ _ hP rfl)

/-- WHAT POINT t WRITES BACK to the weight column is block t of the whole-array weight function. -/
theorem flushed14 (c : Dev nD) (t : Fin cfg0.N) :
    (dat0 (F := Ideal) V c).flushed 14 t = ((cfg0.win 14).blk t).view.read (Elt Ideal)
      (edgeWt (edgeMsg (V c main_v11) (V c main_v18) (V c main_v36) (V c main_v43) (V c main_v45) (V c main_v46) (V c main_v47) (V c main_v48) (V c main_v49)) (V c main_v50) (V c main_v51) (V c main_v52) (V c main_v53)) := by
  obtain ⟨e0, e1⟩ := idx14 t
  show (cfg0.win 14).cut (grid0.coords t) ((dat0 V c).after 14 t) = _
  rw [after14_eq V c t]
  funext y
  rw [View.read_apply]
  have hP : ((((cfg0.win 14).blk t).view.emb y) 0).val = 4000 * t.val + (y 0).val := by
    show win0_14.index t (0 : Fin 2) * 4000 + 1 * (y 0).val = 4000 * t.val + (y 0).val; rw [e0]; omega
  exact wt_block (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (V c main_v11) (V c main_v18) (V c main_v36) (V c main_v43) (V c main_v45) (V c main_v46) (V c main_v47) (V c main_v48) (V c main_v49) (V c main_v50) (V c main_v51) (V c main_v52) (V c main_v53)
    (wblk3 V c t) (wblk4 V c t) (wblk5 V c t) (wblk6 V c t) (wblk7 V c t) (wblk8 V c t)
    (wblk9 V c t) (wblk10 V c t) (wblk11 V c t) (wblk12 V c t)
    ((cfg0.win 14).xinj (grid0.coords t) y) ((((cfg0.win 14).blk t).view.emb y) 0)
    (fun j => rblk0 V c t _ _ hP rfl) (fun j => rblk1 V c t _ _ hP rfl) (rblk2 V c t _ _ hP rfl)

/-- An index of window 13's array is in point t's block iff each coordinate is in the block's range on its axis. -/
theorem mem_blk13 (t : Fin cfg0.N) (i : S600000x128.Idx) :
    i ∈ ((cfg0.win 13).blk t).view.set ↔ ∀ a : Fin 2, win0_13.index t a * S4000x128.size a ≤ (i a).val ∧ (i a).val < win0_13.index t a * S4000x128.size a + S4000x128.size a := by
  show i ∈ ((View.whole main_v54_0).slice (win0_13.rect t)).set ↔ _
  rw [View.set_slice_whole, Rect.mem_set_unit]
  exact Iff.rfl

/-- The blocks of window 13 tile its array: row r lies in the block of point r / 4000. -/
theorem cover13 (i : S600000x128.Idx) :
    ∃ t : Fin cfg0.N, (cfg0.win 13).flush t = true ∧ i ∈ ((cfg0.win 13).blk t).view.set := by
  have hi0 : (i 0).val < 600000 := (i 0).isLt
  have hi1 : (i 1).val < 128 := (i 1).isLt
  have hN : cfg0.N = 150 := N_0
  have ht : (i 0).val / 4000 < cfg0.N := by rw [hN]; omega
  refine ⟨⟨(i 0).val / 4000, ht⟩, flush0_13 _, ?_⟩
  rw [mem_blk13]
  have h := idx_moving ⟨(i 0).val / 4000, ht⟩
  obtain ⟨e0, e1⟩ := h.2.2.2.1
  have e0' : win0_13.index ⟨(i 0).val / 4000, ht⟩ (0 : Fin 2) = (i 0).val / 4000 := e0
  intro a
  match a with
  | ⟨0, _⟩ =>
    show win0_13.index ⟨(i 0).val / 4000, ht⟩ (0 : Fin 2) * 4000 ≤ (i 0).val ∧ (i 0).val < win0_13.index ⟨(i 0).val / 4000, ht⟩ (0 : Fin 2) * 4000 + 4000
    rw [e0']; omega
  | ⟨1, _⟩ =>
    show win0_13.index ⟨(i 0).val / 4000, ht⟩ (1 : Fin 2) * 128 ≤ (i 1).val ∧ (i 1).val < win0_13.index ⟨(i 0).val / 4000, ht⟩ (1 : Fin 2) * 128 + 128
    rw [e1]; omega

/-- An index of window 14's array is in point t's block iff each coordinate is in the block's range on its axis. -/
theorem mem_blk14 (t : Fin cfg0.N) (i : S600000x1.Idx) :
    i ∈ ((cfg0.win 14).blk t).view.set ↔ ∀ a : Fin 2, win0_14.index t a * S4000x1.size a ≤ (i a).val ∧ (i a).val < win0_14.index t a * S4000x1.size a + S4000x1.size a := by
  show i ∈ ((View.whole main_v54_1).slice (win0_14.rect t)).set ↔ _
  rw [View.set_slice_whole, Rect.mem_set_unit]
  exact Iff.rfl

/-- The blocks of window 14 tile its array: row r lies in the block of point r / 4000. -/
theorem cover14 (i : S600000x1.Idx) :
    ∃ t : Fin cfg0.N, (cfg0.win 14).flush t = true ∧ i ∈ ((cfg0.win 14).blk t).view.set := by
  have hi0 : (i 0).val < 600000 := (i 0).isLt
  have hi1 : (i 1).val < 1 := (i 1).isLt
  have hN : cfg0.N = 150 := N_0
  have ht : (i 0).val / 4000 < cfg0.N := by rw [hN]; omega
  refine ⟨⟨(i 0).val / 4000, ht⟩, flush0_14 _, ?_⟩
  rw [mem_blk14]
  have h := idx_moving ⟨(i 0).val / 4000, ht⟩
  obtain ⟨e0, e1⟩ := h.2.2.2.2
  have e0' : win0_14.index ⟨(i 0).val / 4000, ht⟩ (0 : Fin 2) = (i 0).val / 4000 := e0
  intro a
  match a with
  | ⟨0, _⟩ =>
    show win0_14.index ⟨(i 0).val / 4000, ht⟩ (0 : Fin 2) * 4000 ≤ (i 0).val ∧ (i 0).val < win0_14.index ⟨(i 0).val / 4000, ht⟩ (0 : Fin 2) * 4000 + 4000
    rw [e0']; omega
  | ⟨1, _⟩ =>
    show win0_14.index ⟨(i 0).val / 4000, ht⟩ (1 : Fin 2) * 1 ≤ (i 1).val ∧ (i 1).val < win0_14.index ⟨(i 0).val / 4000, ht⟩ (1 : Fin 2) * 1 + 1
    rw [e1]; omega

/-- THE MESSAGE ARRAY after the region: the whole-array message function of the arrays the region found. -/
theorem msg_final (c : Dev nD) :
    (dat0 (F := Ideal) V c).arrAt 13 cfg0.N = edgeMsg (V c main_v11) (V c main_v18) (V c main_v36) (V c main_v43) (V c main_v45) (V c main_v46) (V c main_v47) (V c main_v48) (V c main_v49) :=
  (dat0 (F := Ideal) V c).arrAt_eq_of_cover 13 _ (fun t _ => flushed13 V c t) cover13

/-- THE WEIGHT COLUMN after the region: the whole-array weight function of the messages. -/
theorem wt_final (c : Dev nD) :
    (dat0 (F := Ideal) V c).arrAt 14 cfg0.N
      = edgeWt (edgeMsg (V c main_v11) (V c main_v18) (V c main_v36) (V c main_v43) (V c main_v45) (V c main_v46) (V c main_v47) (V c main_v48) (V c main_v49)) (V c main_v50) (V c main_v51) (V c main_v52) (V c main_v53) :=
  (dat0 (F := Ideal) V c).arrAt_eq_of_cover 14 _ (fun t _ => flushed14 V c t) cover14

end Cert.KernelIdeal.EdgeValue

end
-- ==== Proof.NodeValue.lean ====
/-
  What the node region leaves in its output array.

  The region walks 25 points; at point t it reads rows 2000·t … 2000·t + 1999 of the node features h and of the
  aggregated messages m (128 columns each), reads the two weight bands Wh, Wm, the second weight matrix W2 and the two
  bias rows b1, b2 whole, and writes rows 2000·t … 2000·t + 1999 of the result. Over the extended reals, with σ the
  logistic function and silu v = v · σ v, the entry (p, q) of what it stores for a block of rows is

      h[p,q] + (Σ_k silu ((Σ_j h[p,j]·Wh[j,k] + Σ_j m[p,j]·Wm[j,k]) + b1[0,k]) · W2[k,q] + b2[0,q]),

  the node update of the specification at that row (`payload_at`): each matrix product into zeros is the inner product
  of a row with a column, a bias row repeated down the rows reads the row's entry, and a change of float format is the
  identity. The formula reads only row p of h and of m, so a block of rows of the arrays gives the same value as the
  arrays themselves at row 2000·t + p (`payload_rows`). The 25 blocks of 2000 rows tile the 50000 rows: row r lies in
  block r / 2000 (`cover`). Hence the array ends holding the node update of the arrays the region found
  (`node_final`).
-/
import proofs.«168866_j68195490726193_2_alg».proof.Proof.Gen.KernelIdeal.Frame
import proofs.«168866_j68195490726193_2_alg».proof.Proof.Spec
import proofs.«168866_j68195490726193_2_alg».proof.Proof.LibMatmulNN
import Idealize.ShloMosaic.Lib.Pipeline.Value
import Idealize.ShloMosaic.Lib.ValueLayout

noncomputable section

namespace Cert.KernelIdeal.NodeValue

open Cert.KernelIdeal Cert.KernelIdeal.Gen Cert.Egcl Idealize.ShloMosaic Idealize.ShloMosaic.TcCoe Idealize.ShloMosaic.ValueIdx Idealize.SL.Sem
open Idealize.ShloMosaic.Pipeline (Dat)

-- the arrays as the region finds them
variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-- The region's three products contract axis 1 of a [2000, 128] operand with axis 0 of a [128, 128] one. -/
theorem dot_plain : dot_S2000x128_S128x128_S2000x128_1_0_0_1_n_n = DotDims.plain 2000 128 128 := rfl

/-! ## The stored value at an entry -/

/-- The hidden layer before its activation, at row p and hidden unit k:
    (Σ_j h[p,j]·Wh[j,k] + Σ_j m[p,j]·Wm[j,k]) + b1[0,k]. -/
theorem hidden_at (x0 x1 : FVec Ideal S2000x128 .f32) (x2 x3 : FVec Ideal S128x128 .bf16) (x4 : FVec Ideal S1x128 .f32)
    (p : Fin 2000) (k : Fin 128) :
    addf (addf (matmul dot_S2000x128_S128x128_S2000x128_1_0_0_1_n_n none (truncf .bf16 x0 bitsLt_bf16_f32) x2 (constant S2000x128 .f32 0x00000000#32))
        (matmul dot_S2000x128_S128x128_S2000x128_1_0_0_1_n_n none (truncf .bf16 x1 bitsLt_bf16_f32) x3 (constant S2000x128 .f32 0x00000000#32)))
      (broadcastTo S2000x128 x4 broadcasts_S1x128_S2000x128) (ix2 p k)
      = ((∑ j : Fin 128, x0 (ix2 p j) * x2 (ix2 j k)) + ∑ j : Fin 128, x1 (ix2 p j) * x3 (ix2 j k)) + x4 (ix2 (0 : Fin 1) k) := by
  refine congrArg₂ (· + ·) (congrArg₂ (· + ·) ?_ ?_) ?_
  · exact Cert.MatmulNN.matmul_zero_apply _ dot_plain none _ _ p k
  · exact Cert.MatmulNN.matmul_zero_apply _ dot_plain none _ _ p k
  · exact broadcastTo_1b_ab_apply x4 _ p k

/-- The value stored for a block of rows, at entry (p, q), is the node update of the block at (p, q): the outer sum is
    the product of the activated hidden layer with W2, the activation v · σ v is silu v. -/
theorem payload_at (x0 x1 : FVec Ideal S2000x128 .f32) (x2 x3 : FVec Ideal S128x128 .bf16) (x4 : FVec Ideal S1x128 .f32)
    (x5 : FVec Ideal S128x128 .bf16) (x6 : FVec Ideal S1x128 .f32) (p : Fin 2000) (q : Fin 128) :
    k1_pay1 (F := Ideal) x0 x1 x2 x3 x4 x5 x6 (ix2 p q) = nodeOutAt x0 x1 x2 x3 x4 x5 x6 p q := by
  unfold k1_pay1 nodeOutAt
  simp only [shapeCast_self]
  refine congrArg (x0 (ix2 p q) + ·) (congrArg₂ (· + ·) ?_ (broadcastTo_1b_ab_apply x6 _ p q))
  refine (Cert.MatmulNN.matmul_zero_apply _ dot_plain none _ _ p q).trans ?_
  refine Finset.sum_congr rfl fun k _ => ?_
  refine congrArg (· * x5 (ix2 k q)) ?_
  exact congrArg silu (hidden_at x0 x1 x2 x3 x4 p k)

/-- A block whose row p is row r of two arrays, read with the weights and biases of the arrays' layer, stores at (p, q)
    the node update of those arrays at (r, q): the update at a row reads only that row of the row-indexed operands. -/
theorem payload_rows (x0 x1 : FVec Ideal S2000x128 .f32) (x2 x3 : FVec Ideal S128x128 .bf16) (x4 : FVec Ideal S1x128 .f32)
    (x5 : FVec Ideal S128x128 .bf16) (x6 : FVec Ideal S1x128 .f32) (A0 A1 : Mat 50000 128) (Wh Wm : Mat 128 128)
    (b1 : Mat 1 128) (W2 : Mat 128 128) (b2 : Mat 1 128)
    (e2 : x2 = Wh) (e3 : x3 = Wm) (e4 : x4 = b1) (e5 : x5 = W2) (e6 : x6 = b2)
    (r : Fin 50000) (p : Fin 2000) (q : Fin 128)
    (h0 : ∀ j : Fin 128, x0 (ix2 p j) = A0 (ix2 r j)) (h1 : ∀ j : Fin 128, x1 (ix2 p j) = A1 (ix2 r j)) :
    k1_pay1 (F := Ideal) x0 x1 x2 x3 x4 x5 x6 (ix2 p q) = nodeOut A0 A1 Wh Wm b1 W2 b2 (ix2 r q) := by
  subst e2 e3 e4 e5 e6
  exact (payload_at x0 x1 x2 x3 x4 x5 x6 p q).trans (nodeOutAt_rows x0 x1 A0 A1 x2 x3 x4 x5 x6 p r h0 h1 q)

/-! ## The blocks the points read and write -/

/-- The block indices at point t: (t, 0) for the row-blocked arrays (node features, messages, result), (0, 0) for the
    weights and biases, which are one block each. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The node features' block at point t is rows 2000·t … 2000·t + 1999 of the array. -/
theorem blk0_apply (c : Dev nD) (t : Fin cfg1.N) (x : S2000x128.Idx) (k : S50000x128.Idx)
    (hk0 : (k 0).val = 2000 * t.val + (x 0).val) (hk1 : (k 1).val = (x 1).val) :
    (iblk1 (F := Ideal) V c 0 t : Vec Ideal S2000x128 .f32) x = (V c main_arg0 : S50000x128.Idx → EReal) k := by
  obtain ⟨h0, h1, -⟩ := idx_facts t
  unfold iblk1
  rw [View.read_apply]
  show V c main_arg0 _ = V c main_arg0 _
  congr 1
  funext a
  apply Fin.ext
  match a with
  | ⟨0, _⟩ => show win1_0.index t 0 * 2000 + 1 * (x 0).val = (k 0).val; rw [h0, hk0]; omega
  | ⟨1, _⟩ => show win1_0.index t 1 * 128 + 1 * (x 1).val = (k 1).val; rw [h1, hk1]; omega

/-- The aggregated messages' block at point t is rows 2000·t … 2000·t + 1999 of the array. -/
theorem blk1_apply (c : Dev nD) (t : Fin cfg1.N) (x : S2000x128.Idx) (k : S50000x128.Idx)
    (hk0 : (k 0).val = 2000 * t.val + (x 0).val) (hk1 : (k 1).val = (x 1).val) :
    (iblk1 (F := Ideal) V c 1 t : Vec Ideal S2000x128 .f32) x = (V c main_v59 : S50000x128.Idx → EReal) k := by
  obtain ⟨-, -, h0, h1, -⟩ := idx_facts t
  unfold iblk1
  rw [View.read_apply]
  show V c main_v59 _ = V c main_v59 _
  congr 1
  funext a
  apply Fin.ext
  match a with
  | ⟨0, _⟩ => show win1_1.index t 0 * 2000 + 1 * (x 0).val = (k 0).val; rw [h0, hk0]; omega
  | ⟨1, _⟩ => show win1_1.index t 1 * 128 + 1 * (x 1).val = (k 1).val; rw [h1, hk1]; omega

/-- The weight band Wh is read whole at every point. -/
theorem blk2_eq (c : Dev nD) (t : Fin cfg1.N) :
    (iblk1 (F := Ideal) V c 2 t : Vec Ideal S128x128 .bf16) = (V c main_v65 : S128x128.Idx → EReal) := by
  obtain ⟨-, -, -, -, h0, h1, -⟩ := idx_facts t
  funext x
  unfold iblk1
  rw [View.read_apply]
  show V c main_v65 _ = V c main_v65 _
  congr 1
  funext a
  apply Fin.ext
  match a with
  | ⟨0, _⟩ => show win1_2.index t 0 * 128 + 1 * (x 0).val = (x 0).val; rw [h0]; omega
  | ⟨1, _⟩ => show win1_2.index t 1 * 128 + 1 * (x 1).val = (x 1).val; rw [h1]; omega

/-- The weight band Wm is read whole at every point. -/
theorem blk3_eq (c : Dev nD) (t : Fin cfg1.N) :
    (iblk1 (F := Ideal) V c 3 t : Vec Ideal S128x128 .bf16) = (V c main_v67 : S128x128.Idx → EReal) := by
  obtain ⟨-, -, -, -, -, -, h0, h1, -⟩ := idx_facts t
  funext x
  unfold iblk1
  rw [View.read_apply]
  show V c main_v67 _ = V c main_v67 _
  congr 1
  funext a
  apply Fin.ext
  match a with
  | ⟨0, _⟩ => show win1_3.index t 0 * 128 + 1 * (x 0).val = (x 0).val; rw [h0]; omega
  | ⟨1, _⟩ => show win1_3.index t 1 * 128 + 1 * (x 1).val = (x 1).val; rw [h1]; omega

/-- The bias row b1 is read whole at every point. -/
theorem blk4_eq (c : Dev nD) (t : Fin cfg1.N) :
    (iblk1 (F := Ideal) V c 4 t : Vec Ideal S1x128 .f32) = (V c main_v68 : S1x128.Idx → EReal) := by
  obtain ⟨-, -, -, -, -, -, -, -, h0, h1, -⟩ := idx_facts t
  funext x
  unfold iblk1
  rw [View.read_apply]
  show V c main_v68 _ = V c main_v68 _
  congr 1
  funext a
  apply Fin.ext
  match a with
  | ⟨0, _⟩ => show win1_4.index t 0 * 1 + 1 * (x 0).val = (x 0).val; rw [h0]; omega
  | ⟨1, _⟩ => show win1_4.index t 1 * 128 + 1 * (x 1).val = (x 1).val; rw [h1]; omega

/-- The weight matrix W2 is read whole at every point. -/
theorem blk5_eq (c : Dev nD) (t : Fin cfg1.N) :
    (iblk1 (F := Ideal) V c 5 t : Vec Ideal S128x128 .bf16) = (V c main_v69 : S128x128.Idx → EReal) := by
  obtain ⟨-, -, -, -, -, -, -, -, -, -, h0, h1, -⟩ := idx_facts t
  funext x
  unfold iblk1
  rw [View.read_apply]
  show V c main_v69 _ = V c main_v69 _
  congr 1
  funext a
  apply Fin.ext
  match a with
  | ⟨0, _⟩ => show win1_5.index t 0 * 128 + 1 * (x 0).val = (x 0).val; rw [h0]; omega
  | ⟨1, _⟩ => show win1_5.index t 1 * 128 + 1 * (x 1).val = (x 1).val; rw [h1]; omega

/-- The bias row b2 is read whole at every point. -/
theorem blk6_eq (c : Dev nD) (t : Fin cfg1.N) :
    (iblk1 (F := Ideal) V c 6 t : Vec Ideal S1x128 .f32) = (V c main_v70 : S1x128.Idx → EReal) := by
  obtain ⟨-, -, -, -, -, -, -, -, -, -, -, -, h0, h1, -⟩ := idx_facts t
  funext x
  unfold iblk1
  rw [View.read_apply]
  show V c main_v70 _ = V c main_v70 _
  congr 1
  funext a
  apply Fin.ext
  match a with
  | ⟨0, _⟩ => show win1_6.index t 0 * 1 + 1 * (x 0).val = (x 0).val; rw [h0]; omega
  | ⟨1, _⟩ => show win1_6.index t 1 * 128 + 1 * (x 1).val = (x 1).val; rw [h1]; omega

/-! ## What a point writes back -/

/-- What the body leaves in the result's buffer at point t is the stored value of the point's seven input blocks: its
    one store covers the buffer and its loads read the blocks whole. -/
theorem after_eq (c : Dev nD) (t : Fin cfg1.N) :
    (dat1 (F := Ideal) V c).after 7 t
      = k1_pay1 (F := Ideal) (iblk1 V c 0 t) (iblk1 V c 1 t) (iblk1 V c 2 t) (iblk1 V c 3 t) (iblk1 V c 4 t)
          (iblk1 V c 5 t) (iblk1 V c 6 t) := by
  rw [after1_7]
  unfold out1_7
  rw [View.canon_unit_zero hz]
  simp only [View.ld_unit_zero (S := S2000x128) hz, View.ld_unit_zero (S := S128x128) hz, View.ld_unit_zero (S := S1x128) hz]

/-- Point t writes back block t of the node update of the arrays: entry (p, q) of the block is entry (2000·t + p, q)
    of the array, and there the stored value is the update at that row. -/
theorem flushed_eq (c : Dev nD) (t : Fin cfg1.N) :
    (dat1 (F := Ideal) V c).flushed 7 t
      = ((cfg1.win 7).blk t).view.read (Elt Ideal)
          (nodeOut (V c main_arg0) (V c main_v59) (V c main_v65) (V c main_v67) (V c main_v68) (V c main_v69) (V c main_v70)) := by
  have hN : grid1.N = 25 := N_1
  have htl : t.val < 25 := (show t.val < grid1.N from t.isLt).trans_eq hN
  show (cfg1.win 7).cut (grid1.coords t) ((dat1 V c).after 7 t) = _
  rw [after_eq V c t]
  obtain ⟨-, -, -, -, -, -, -, -, -, -, -, -, -, -, e0, e1⟩ := idx_facts t
  funext y
  obtain ⟨p, q, rfl⟩ : ∃ (p : Fin 2000) (q : Fin 128), y = ix2 p q := ⟨y 0, y 1, eq_ix2 y⟩
  have hr : 2000 * t.val + p.val < 50000 := by have := p.isLt; omega
  have hi : ((cfg1.win 7).blk t).view.emb (ix2 p q) = (ix2 (⟨2000 * t.val + p.val, hr⟩ : Fin 50000) q : S50000x128.Idx) := by
    funext a
    apply Fin.ext
    match a with
    | ⟨0, _⟩ => show win1_7.index t 0 * 2000 + 1 * p.val = 2000 * t.val + p.val; rw [e0]; omega
    | ⟨1, _⟩ => show win1_7.index t 1 * 128 + 1 * q.val = q.val; rw [e1]; omega
  rw [View.read_apply, hi]
  exact payload_rows (iblk1 V c 0 t) (iblk1 V c 1 t) (iblk1 V c 2 t) (iblk1 V c 3 t) (iblk1 V c 4 t) (iblk1 V c 5 t)
    (iblk1 V c 6 t) (V c main_arg0) (V c main_v59) (V c main_v65) (V c main_v67) (V c main_v68) (V c main_v69) (V c main_v70)
    (blk2_eq V c t) (blk3_eq V c t) (blk4_eq V c t) (blk5_eq V c t) (blk6_eq V c t) ⟨2000 * t.val + p.val, hr⟩ p q
    (fun j => blk0_apply V c t (ix2 p j) (ix2 ⟨2000 * t.val + p.val, hr⟩ j) rfl rfl)
    (fun j => blk1_apply V c t (ix2 p j) (ix2 ⟨2000 * t.val + p.val, hr⟩ j) rfl rfl)

/-! ## The blocks tile the array -/

/-- An entry of the array is in point t's block iff each coordinate is in the block's range on its axis. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v71).slice (win1_7.rect t)).set ↔ _
  rw [View.set_slice_whole, Rect.mem_set_unit]
  exact Iff.rfl

/-- Row r of the array lies in the block of point r / 2000, and every point writes its block back. -/
theorem cover (i : S50000x128.Idx) :
    ∃ t : Fin cfg1.N, (cfg1.win 7).flush t = true ∧ i ∈ ((cfg1.win 7).blk t).view.set := by
  have hN : grid1.N = 25 := N_1
  have hi0 : (i 0).val < 50000 := (i 0).isLt
  have hi1 : (i 1).val < 128 := (i 1).isLt
  have ht : (i 0).val / 2000 < cfg1.N := by show _ < grid1.N; rw [hN]; omega
  obtain ⟨-, -, -, -, -, -, -, -, -, -, -, -, -, -, h0, h1⟩ := idx_facts ⟨(i 0).val / 2000, ht⟩
  refine ⟨⟨(i 0).val / 2000, ht⟩, flush1_7 _, ?_⟩
  rw [mem_blk]
  intro a
  match a with
  | ⟨0, _⟩ =>
    show win1_7.index ⟨(i 0).val / 2000, ht⟩ 0 * 2000 ≤ (i 0).val ∧ (i 0).val < win1_7.index ⟨(i 0).val / 2000, ht⟩ 0 * 2000 + 2000
    rw [h0]; show (i 0).val / 2000 * 2000 ≤ (i 0).val ∧ (i 0).val < (i 0).val / 2000 * 2000 + 2000; omega
  | ⟨1, _⟩ =>
    show win1_7.index ⟨(i 0).val / 2000, ht⟩ 1 * 128 ≤ (i 1).val ∧ (i 1).val < win1_7.index ⟨(i 0).val / 2000, ht⟩ 1 * 128 + 128
    rw [h1]; omega

/-! ## The array after the region -/

/-- After the region the result array holds the node update of the node features, the aggregated messages, the weight
    bands, the second weight matrix and the two bias rows as the region found them. -/
theorem node_final (c : Dev nD) :
    (dat1 (F := Ideal) V c).arrAt 7 cfg1.N
      = nodeOut (V c main_arg0) (V c main_v59) (V c main_v65) (V c main_v67) (V c main_v68) (V c main_v69) (V c main_v70) :=
  (dat1 V c).arrAt_eq_of_cover 7 _ (fun t _ => flushed_eq V c t) cover

end Cert.KernelIdeal.NodeValue

end
-- ==== Proof.LibConcatCols.lean ====
/-
  A reusable lemma: two matrices with the same number of rows laid side by side, read at an entry.

  The concatenation along axis 1 of an [M, a] array and an [M, b] array into an [M, c] array (c = a + b), at (p, j):
  the left piece at (p, j) when j is below a, the right piece at (p, j - a) otherwise. Generic in M, a, b, c and in the
  element type; the column of the piece is passed with its defining equation, so a use site picks its own spelling.
-/
import Idealize.ShloMosaic.Lib.Pipeline.Value
import Idealize.ShloMosaic.Lib.ValueIdx

noncomputable section

namespace Cert.ConcatCols

open Idealize.ShloMosaic Idealize.ShloMosaic.ValueIdx

variable {α : Type} {M a b c : ℕ}

/-- A column in the left piece: the left piece at the same row and the same column. -/
theorem left_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin a) (hk : k.val = j.val) :
    concatenate ⟨2, ![M, c]⟩ 1 [⟨⟨2, ![M, a]⟩, x₁⟩, ⟨⟨2, ![M, b]⟩, x₂⟩] h (ix2 p j) = x₁ (ix2 p k) :=
  concatenate_pair_apply_left 1 x₁ x₂ h (ix2 p j) rfl (ix2 p k)
    (fun d => match d with | ⟨0, _⟩ => rfl | ⟨1, _⟩ => hk)

/-- A column past the left piece: the right piece at the same row, the column less the left piece's width. -/
theorem right_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin b) (hk : k.val + a = j.val) :
    concatenate ⟨2, ![M, c]⟩ 1 [⟨⟨2, ![M, a]⟩, x₁⟩, ⟨⟨2, ![M, b]⟩, x₂⟩] h (ix2 p j) = x₂ (ix2 p k) :=
  concatenate_pair_apply_right 1 x₁ x₂ h (ix2 p j) rfl rfl (ix2 p k)
    (fun d hd => match d, hd with
      | ⟨0, _⟩, _ => rfl
      | ⟨1, _⟩, hd => absurd rfl hd) hk

/-- Both cases at once (`hc`: the widths add up): the entry comes from the left piece when its column is below the left
    piece's width, from the right piece otherwise. -/
theorem apply_dite (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1) (hc : c = a + b)
    (p : Fin M) (j : Fin c) :
    concatenate ⟨2, ![M, c]⟩ 1 [⟨⟨2, ![M, a]⟩, x₁⟩, ⟨⟨2, ![M, b]⟩, x₂⟩] h (ix2 p j)
      = if hj : j.val < a then x₁ (ix2 p ⟨j.val, hj⟩)
        else x₂ (ix2 p ⟨j.val - a, by have := j.isLt; omega⟩) := by
  by_cases hj : j.val < a
  · rw [dif_pos hj]
    exact left_apply x₁ x₂ h p j ⟨j.val, hj⟩ rfl
  · rw [dif_neg hj]
    exact right_apply x₁ x₂ h p j ⟨j.val - a, by have := j.isLt; omega⟩ (by show j.val - a + a = j.val; omega)

end Cert.ConcatCols

end
-- ==== Proof.LibConcatColsThree.lean ====
/-
  A reusable lemma: three matrices with the same number of rows laid side by side, read at an entry.

  The concatenation along axis 1 of an [M, a], an [M, b] and an [M, c] array into an [M, t] array, at (p, j): the first
  piece at (p, j) when j is below a, the second at (p, j - a) when a ≤ j < a + b, the third at (p, j - a - b) otherwise.
  The three widths need not be equal (a feature block, a second feature block and a single extra column, say).
  Generic in M, a, b, c, t and in the element type; the column inside the piece is passed with its defining equation,
  so a use site picks its own spelling.
-/
import Idealize.ShloMosaic.Lib.Pipeline.Value
import Idealize.ShloMosaic.Lib.ValueIdx

noncomputable section

namespace Cert.ConcatColsThree

open Idealize.ShloMosaic Idealize.ShloMosaic.ValueIdx

variable {α : Type} {M a b c t : ℕ}

/-- A column in the first piece: the first piece at the same row and column. -/
theorem first_apply (x₁ : (⟨2, ![M, a]⟩ : Shape).Idx → α) (x₂ : (⟨2, ![M, b]⟩ : Shape).Idx → α)
    (x₃ : (⟨2, ![M, c]⟩ : Shape).Idx → α)
    (h : Shape.Concatenates [⟨2, ![M, a]⟩, ⟨2, ![M, b]⟩, ⟨2, ![M, c]⟩] ⟨2, ![M, t]⟩ 1)
    (p : Fin M) (j : Fin t) (k : Fin a) (hk : k.val = j.val) :
    concatenate ⟨2, ![M, t]⟩ 1 [⟨⟨2, ![M, a]⟩, x₁⟩, ⟨⟨2, ![M, b]⟩, x₂⟩, ⟨⟨2, ![M, c]⟩, x₃⟩] h (ix2 p j) = x₁ (ix2 p k) :=
  concatenate_apply_piece (t := ⟨2, ![M, t]⟩) 1 [⟨⟨2, ![M, a]⟩, x₁⟩, ⟨⟨2, ![M, b]⟩, x₂⟩, ⟨⟨2, ![M, c]⟩, x₃⟩] h (ix2 p j)
    0 (by simp) ⟨2, ![M, a]⟩ x₁ rfl rfl 0 rfl (ix2 p k)
    (fun d hd => match d, hd with | ⟨0, _⟩, _ => rfl | ⟨1, _⟩, hd => absurd rfl hd)
    (by show 0 + k.val = j.val; omega)

/-- A column in the second piece: the second piece at the same row, the column less the first piece's width. -/
theorem second_apply (x₁ : (⟨2, ![M, a]⟩ : Shape).Idx → α) (x₂ : (⟨2, ![M, b]⟩ : Shape).Idx → α)
    (x₃ : (⟨2, ![M, c]⟩ : Shape).Idx → α)
    (h : Shape.Concatenates [⟨2, ![M, a]⟩, ⟨2, ![M, b]⟩, ⟨2, ![M, c]⟩] ⟨2, ![M, t]⟩ 1)
    (p : Fin M) (j : Fin t) (k : Fin b) (hk : a + k.val = j.val) :
    concatenate ⟨2, ![M, t]⟩ 1 [⟨⟨2, ![M, a]⟩, x₁⟩, ⟨⟨2, ![M, b]⟩, x₂⟩, ⟨⟨2, ![M, c]⟩, x₃⟩] h (ix2 p j) = x₂ (ix2 p k) :=
  concatenate_apply_piece (t := ⟨2, ![M, t]⟩) 1 [⟨⟨2, ![M, a]⟩, x₁⟩, ⟨⟨2, ![M, b]⟩, x₂⟩, ⟨⟨2, ![M, c]⟩, x₃⟩] h (ix2 p j)
    1 (by simp) ⟨2, ![M, b]⟩ x₂ rfl rfl a (by simp) (ix2 p k)
    (fun d hd => match d, hd with | ⟨0, _⟩, _ => rfl | ⟨1, _⟩, hd => absurd rfl hd)
    (by show a + k.val = j.val; omega)

/-- A column in the third piece: the third piece at the same row, the column less the first two pieces' widths. -/
theorem third_apply (x₁ : (⟨2, ![M, a]⟩ : Shape).Idx → α) (x₂ : (⟨2, ![M, b]⟩ : Shape).Idx → α)
    (x₃ : (⟨2, ![M, c]⟩ : Shape).Idx → α)
    (h : Shape.Concatenates [⟨2, ![M, a]⟩, ⟨2, ![M, b]⟩, ⟨2, ![M, c]⟩] ⟨2, ![M, t]⟩ 1)
    (p : Fin M) (j : Fin t) (k : Fin c) (hk : a + b + k.val = j.val) :
    concatenate ⟨2, ![M, t]⟩ 1 [⟨⟨2, ![M, a]⟩, x₁⟩, ⟨⟨2, ![M, b]⟩, x₂⟩, ⟨⟨2, ![M, c]⟩, x₃⟩] h (ix2 p j) = x₃ (ix2 p k) :=
  concatenate_apply_piece (t := ⟨2, ![M, t]⟩) 1 [⟨⟨2, ![M, a]⟩, x₁⟩, ⟨⟨2, ![M, b]⟩, x₂⟩, ⟨⟨2, ![M, c]⟩, x₃⟩] h (ix2 p j)
    2 (by simp) ⟨2, ![M, c]⟩ x₃ rfl rfl (a + b) (by simp) (ix2 p k)
    (fun d hd => match d, hd with | ⟨0, _⟩, _ => rfl | ⟨1, _⟩, hd => absurd rfl hd)
    (by show a + b + k.val = j.val; omega)

end Cert.ConcatColsThree

end
-- ==== Proof.RefStages.lean ====
/-
  The reference's dense stages are the specification.

  The reference computes an equivariant graph-convolution layer one whole-array operation at a time.  Read entry by
  entry, three of its intermediate arrays are the functions of `Spec`:

    * the edge messages: the 257-column concatenation [h_r | h_c | rad] times the stacked 257-row weight matrix, plus a
      bias row, through silu, times a 128 x 128 matrix, plus a bias row, through silu;
    * the coordinate weights: the messages times a 128 x 128 matrix, plus a bias row, through silu, times a 128 x 1
      column, plus a bias;
    * the node update: the 256-column concatenation [h | m_i] times the stacked 256-row weight matrix, plus a bias row,
      through silu, times a 128 x 128 matrix, plus a bias row, added to h.

  Two things separate the reference's spelling from the specification's.  A product with a stacked matrix is a sum over
  the stacked axis, and a sum over 257 = 128 + 128 + 1 (or 256 = 128 + 128) indices is the sum of the sums over the
  bands, each band of the concatenation being one of its pieces (`sum_257`, `sum_256`: regroupings of a finite sum, no
  finiteness needed).  And the reference writes silu v as v * (1 / (1 + exp (-v))) with the word of the float 1.0, which
  is v * logistic v (`silu_quotient`).  The gathers that produce h_r and h_c, the reduction that produces rad and the
  scatter that produces m_i are never opened: they are the same terms on both sides.
-/
import proofs.«168866_j68195490726193_2_alg».proof.Proof.Gen.ReferenceIdeal.Read
import proofs.«168866_j68195490726193_2_alg».proof.Proof.Spec
import proofs.«168866_j68195490726193_2_alg».proof.Proof.LibConcatCols
import proofs.«168866_j68195490726193_2_alg».proof.Proof.LibConcatColsThree

noncomputable section

namespace Cert.ReferenceIdeal.RefValue

open Cert.ReferenceIdeal Cert.ReferenceIdeal.Read Cert.Egcl Idealize.ShloMosaic Idealize.ShloMosaic.ValueIdx

variable (x0 : (⟨S50000x128, .f32⟩ : BufTy).Contents (Elt Ideal))
  (x1 : (⟨S50000x3, .f32⟩ : BufTy).Contents (Elt Ideal))
  (x2 : (⟨S2x600000, .i32⟩ : BufTy).Contents (Elt Ideal))
  (x3 : (⟨S257x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S128x1, .f32⟩ : BufTy).Contents (Elt Ideal))
  (x10 : (⟨S1, .f32⟩ : BufTy).Contents (Elt Ideal))
  (x11 : (⟨S256x128, .f32⟩ : BufTy).Contents (Elt Ideal))
  (x12 : (⟨S128, .f32⟩ : BufTy).Contents (Elt Ideal))
  (x13 : (⟨S128x128, .f32⟩ : BufTy).Contents (Elt Ideal))
  (x14 : (⟨S128, .f32⟩ : BufTy).Contents (Elt Ideal))

/-! ## The edge messages -/

/-- The 257-column concatenation at a column of its first band is h_r. -/
theorem cat257_first (p : Fin 600000) (j : Fin 128) :
    val_main_v41 (F := Ideal) x0 x1 x2 (ix2 p (⟨j.val, by omega⟩ : Fin 257)) = val_main_v33 (F := Ideal) x0 x2 (ix2 p j) := by
  unfold val_main_v41
  generalize val_main_v33 (F := Ideal) x0 x2 = hr
  generalize val_main_v40 (F := Ideal) x0 x2 = hc
  generalize val_main_v21 (F := Ideal) x1 x2 = rad
  exact Cert.ConcatColsThree.first_apply hr hc rad _ p _ j rfl

/-- The 257-column concatenation at a column of its second band is h_c. -/
theorem cat257_second (p : Fin 600000) (j : Fin 128) :
    val_main_v41 (F := Ideal) x0 x1 x2 (ix2 p (⟨128 + j.val, by omega⟩ : Fin 257)) = val_main_v40 (F := Ideal) x0 x2 (ix2 p j) := by
  unfold val_main_v41
  generalize val_main_v33 (F := Ideal) x0 x2 = hr
  generalize val_main_v40 (F := Ideal) x0 x2 = hc
  generalize val_main_v21 (F := Ideal) x1 x2 = rad
  exact Cert.ConcatColsThree.second_apply hr hc rad _ p _ j rfl

/-- The 257-column concatenation at its last column is the squared distance. -/
theorem cat257_third (p : Fin 600000) :
    val_main_v41 (F := Ideal) x0 x1 x2 (ix2 p (⟨256, by omega⟩ : Fin 257))
      = val_main_v21 (F := Ideal) x1 x2 (ix2 p (0 : Fin 1)) := by
  unfold val_main_v41
  generalize val_main_v33 (F := Ideal) x0 x2 = hr
  generalize val_main_v40 (F := Ideal) x0 x2 = hc
  generalize val_main_v21 (F := Ideal) x1 x2 = rad
  exact Cert.ConcatColsThree.third_apply hr hc rad _ p _ (0 : Fin 1) rfl

/-- The first product's left operand index: row p, column j. -/
theorem lidx42 (p : Fin 600000) (k : Fin 128) (j : Fin 257) : lidx_main_v42 (ix2 p k) j = ix2 p j :=
  funext fun a => Fin.ext (by match a with | ⟨0, _⟩ => rfl | ⟨1, _⟩ => rfl)

/-- The first product's right operand index: row j, column k. -/
theorem ridx42 (p : Fin 600000) (k : Fin 128) (j : Fin 257) : ridx_main_v42 (ix2 p k) j = ix2 j k :=
  funext fun a => Fin.ext (by match a with | ⟨0, _⟩ => rfl | ⟨1, _⟩ => rfl)

/-- The first bias row, repeated down the edges, at (p, k) is the bias vector's entry k. -/
theorem bias44 (p : Fin 600000) (k : Fin 128) : val_main_v44 (F := Ideal) x4 (ix2 p k) = x4 (ix1 k) := by
  rw [val_main_v44_apply, val_main_v43_apply]
  exact congrArg x4 (funext fun a => Fin.ext (by match a with | ⟨0, _⟩ => rfl))

/-- The first edge layer before its activation is `edgeHid`: the 257-sum splits into its three bands. -/
theorem hid45 (Wr Wc : Mat 128 128) (Wrad b1 : Mat 1 128)
    (hWr : ∀ j k : Fin 128, Wr (ix2 j k) = x3 (ix2 (⟨j.val, by omega⟩ : Fin 257) k))
    (hWc : ∀ j k : Fin 128, Wc (ix2 j k) = x3 (ix2 (⟨128 + j.val, by omega⟩ : Fin 257) k))
    (hWrad : ∀ k : Fin 128, Wrad (ix2 (0 : Fin 1) k) = x3 (ix2 (⟨256, by omega⟩ : Fin 257) k))
    (hb1 : ∀ k : Fin 128, b1 (ix2 (0 : Fin 1) k) = x4 (ix1 k)) (p : Fin 600000) (k : Fin 128) :
    val_main_v45 (F := Ideal) x0 x1 x2 x3 x4 (ix2 p k)
      = edgeHid (val_main_v33 (F := Ideal) x0 x2) (val_main_v40 (F := Ideal) x0 x2) (val_main_v21 (F := Ideal) x1 x2)
          Wr Wc Wrad b1 p k := by
  rw [val_main_v45_apply, val_main_v42_apply, bias44]
  simp only [lidx42, ridx42]
  rw [sum_257]
  simp only [cat257_first, cat257_second, cat257_third]
  unfold edgeHid
  simp only [hWr, hWc, hWrad, hb1]
  rfl

/-- The first activation: the quotient spelling is silu. -/
theorem silu46 (i : S600000x128.Idx) :
    val_main_v46 (F := Ideal) x0 x1 x2 x3 x4 i = silu (val_main_v45 (F := Ideal) x0 x1 x2 x3 x4 i) := by
  rw [val_main_v46_apply, val_main_call0_v5_apply, val_main_call0_v4_apply, val_main_call0_cst_0_apply,
    val_main_call0_v3_apply, val_main_call0_v2_apply, val_main_call0_cst_apply, val_main_call0_v1_apply,
    val_main_call0_v0_apply]
  exact silu_quotient _

theorem lidx47 (p : Fin 600000) (q k : Fin 128) : lidx_main_v47 (ix2 p q) k = ix2 p k :=
  funext fun a => Fin.ext (by match a with | ⟨0, _⟩ => rfl | ⟨1, _⟩ => rfl)

theorem ridx47 (p : Fin 600000) (q k : Fin 128) : ridx_main_v47 (ix2 p q) k = ix2 k q :=
  funext fun a => Fin.ext (by match a with | ⟨0, _⟩ => rfl | ⟨1, _⟩ => rfl)

/-- The second bias row, repeated down the edges, at (p, q) is the bias vector's entry q. -/
theorem bias49 (p : Fin 600000) (q : Fin 128) : val_main_v49 (F := Ideal) x6 (ix2 p q) = x6 (ix1 q) := by
  rw [val_main_v49_apply, val_main_v48_apply]
  exact congrArg x6 (funext fun a => Fin.ext (by match a with | ⟨0, _⟩ => rfl))

/-- The second activation: the quotient spelling is silu. -/
theorem silu51 (i : S600000x128.Idx) :
    val_main_v51 (F := Ideal) x0 x1 x2 x3 x4 x5 x6 i = silu (val_main_v50 (F := Ideal) x0 x1 x2 x3 x4 x5 x6 i) := by
  rw [val_main_v51_apply, val_main_call1_v5_apply, val_main_call1_v4_apply, val_main_call1_cst_0_apply,
    val_main_call1_v3_apply, val_main_call1_v2_apply, val_main_call1_cst_apply, val_main_call1_v1_apply,
    val_main_call1_v0_apply]
  exact silu_quotient _

/-- The reference's edge messages are the specification's. -/
theorem edge_msg (Wr Wc : Mat 128 128) (Wrad b1 b2 : Mat 1 128)
    (hWr : ∀ j k : Fin 128, Wr (ix2 j k) = x3 (ix2 (⟨j.val, by omega⟩ : Fin 257) k))
    (hWc : ∀ j k : Fin 128, Wc (ix2 j k) = x3 (ix2 (⟨128 + j.val, by omega⟩ : Fin 257) k))
    (hWrad : ∀ k : Fin 128, Wrad (ix2 (0 : Fin 1) k) = x3 (ix2 (⟨256, by omega⟩ : Fin 257) k))
    (hb1 : ∀ k : Fin 128, b1 (ix2 (0 : Fin 1) k) = x4 (ix1 k))
    (hb2 : ∀ k : Fin 128, b2 (ix2 (0 : Fin 1) k) = x6 (ix1 k)) :
    val_main_v51 (F := Ideal) x0 x1 x2 x3 x4 x5 x6
      = edgeMsg (val_main_v33 (F := Ideal) x0 x2) (val_main_v40 (F := Ideal) x0 x2) (val_main_v21 (F := Ideal) x1 x2)
          Wr Wc Wrad b1 x5 b2 := by
  funext i
  obtain ⟨p, q, rfl⟩ : ∃ (p : Fin 600000) (q : Fin 128), i = ix2 p q := ⟨i 0, i 1, eq_ix2 i⟩
  rw [edgeMsg_ix2, silu51, val_main_v50_apply, val_main_v47_apply, bias49]
  simp only [lidx47, ridx47, silu46, hid45 x0 x1 x2 x3 x4 Wr Wc Wrad b1 hWr hWc hWrad hb1]
  unfold edgeMsgAt
  rw [hb2]
  rfl

/-! ## The coordinate weights -/

theorem lidx52 (p : Fin 600000) (q k : Fin 128) : lidx_main_v52 (ix2 p q) k = ix2 p k :=
  funext fun a => Fin.ext (by match a with | ⟨0, _⟩ => rfl | ⟨1, _⟩ => rfl)

theorem ridx52 (p : Fin 600000) (q k : Fin 128) : ridx_main_v52 (ix2 p q) k = ix2 k q :=
  funext fun a => Fin.ext (by match a with | ⟨0, _⟩ => rfl | ⟨1, _⟩ => rfl)

/-- The bias row of the weight head, repeated down the edges, at (p, k) is the bias vector's entry k. -/
theorem bias54 (p : Fin 600000) (k : Fin 128) : val_main_v54 (F := Ideal) x8 (ix2 p k) = x8 (ix1 k) := by
  rw [val_main_v54_apply, val_main_v53_apply]
  exact congrArg x8 (funext fun a => Fin.ext (by match a with | ⟨0, _⟩ => rfl))

/-- The activation of the weight head: the quotient spelling is silu. -/
theorem silu56 (i : S600000x128.Idx) :
    val_main_v56 (F := Ideal) x0 x1 x2 x3 x4 x5 x6 x7 x8 i
      = silu (val_main_v55 (F := Ideal) x0 x1 x2 x3 x4 x5 x6 x7 x8 i) := by
  rw [val_main_v56_apply, val_main_call2_v5_apply, val_main_call2_v4_apply, val_main_call2_cst_0_apply,
    val_main_call2_v3_apply, val_main_call2_v2_apply, val_main_call2_cst_apply, val_main_call2_v1_apply,
    val_main_call2_v0_apply]
  exact silu_quotient _

theorem lidx57 (p : Fin 600000) (u : Fin 1) (k : Fin 128) : lidx_main_v57 (ix2 p u) k = ix2 p k :=
  funext fun a => Fin.ext (by match a with | ⟨0, _⟩ => rfl | ⟨1, _⟩ => rfl)

theorem ridx57 (p : Fin 600000) (u : Fin 1) (k : Fin 128) : ridx_main_v57 (ix2 p u) k = ix2 k u :=
  funext fun a => Fin.ext (by match a with | ⟨0, _⟩ => rfl | ⟨1, _⟩ => rfl)

/-- The scalar bias of the weight head, repeated down the edges, is the bias vector's one entry. -/
theorem bias59 (p : Fin 600000) (u : Fin 1) : val_main_v59 (F := Ideal) x10 (ix2 p u) = x10 (ix1 (0 : Fin 1)) := by
  rw [val_main_v59_apply, val_main_v58_apply]
  exact congrArg x10 (funext fun a => Fin.ext (by match a with | ⟨0, _⟩ => rfl))

/-- The reference's coordinate weights are the specification's, as a function of the reference's messages. -/
theorem edge_wt (c1 : Mat 1 128) (c2 : Mat 1 1)
    (hc1 : ∀ k : Fin 128, c1 (ix2 (0 : Fin 1) k) = x8 (ix1 k))
    (hc2 : c2 (ix2 (0 : Fin 1) (0 : Fin 1)) = x10 (ix1 (0 : Fin 1))) :
    val_main_v60 (F := Ideal) x0 x1 x2 x3 x4 x5 x6 x7 x8 x9 x10
      = edgeWt (val_main_v51 (F := Ideal) x0 x1 x2 x3 x4 x5 x6) x7 c1 x9 c2 := by
  funext i
  obtain ⟨p, u, rfl⟩ : ∃ (p : Fin 600000) (u : Fin 1), i = ix2 p u := ⟨i 0, i 1, eq_ix2 i⟩
  obtain rfl : u = 0 := Subsingleton.elim _ _
  rw [edgeWt_ix2, val_main_v60_apply, val_main_v57_apply, bias59]
  simp only [lidx57, ridx57, silu56, val_main_v55_apply, val_main_v52_apply, lidx52, ridx52, bias54]
  generalize val_main_v51 (F := Ideal) x0 x1 x2 x3 x4 x5 x6 = M
  unfold edgeWtAt
  simp only [hc1, hc2]
  rfl

/-! ## The node update -/

/-- The 256-column concatenation at a column of its first band is h. -/
theorem cat256_left (p : Fin 50000) (j : Fin 128) :
    val_main_v70 (F := Ideal) x0 x1 x2 x3 x4 x5 x6 (ix2 p (⟨j.val, by omega⟩ : Fin 256)) = x0 (ix2 p j) := by
  unfold val_main_v70
  generalize val_main_v69 (F := Ideal) x0 x1 x2 x3 x4 x5 x6 = mi
  exact Cert.ConcatCols.left_apply x0 mi _ p _ j rfl

/-- The 256-column concatenation at a column of its second band is the aggregated messages. -/
theorem cat256_right (p : Fin 50000) (j : Fin 128) :
    val_main_v70 (F := Ideal) x0 x1 x2 x3 x4 x5 x6 (ix2 p (⟨128 + j.val, by omega⟩ : Fin 256))
      = val_main_v69 (F := Ideal) x0 x1 x2 x3 x4 x5 x6 (ix2 p j) := by
  unfold val_main_v70
  generalize val_main_v69 (F := Ideal) x0 x1 x2 x3 x4 x5 x6 = mi
  exact Cert.ConcatCols.right_apply x0 mi _ p _ j (by show j.val + 128 = 128 + j.val; omega)

theorem lidx71 (p : Fin 50000) (k : Fin 128) (j : Fin 256) : lidx_main_v71 (ix2 p k) j = ix2 p j :=
  funext fun a => Fin.ext (by match a with | ⟨0, _⟩ => rfl | ⟨1, _⟩ => rfl)

theorem ridx71 (p : Fin 50000) (k : Fin 128) (j : Fin 256) : ridx_main_v71 (ix2 p k) j = ix2 j k :=
  funext fun a => Fin.ext (by match a with | ⟨0, _⟩ => rfl | ⟨1, _⟩ => rfl)

/-- The first bias row of the node stage, repeated down the nodes, at (p, k) is the bias vector's entry k. -/
theorem bias73 (p : Fin 50000) (k : Fin 128) : val_main_v73 (F := Ideal) x12 (ix2 p k) = x12 (ix1 k) := by
  rw [val_main_v73_apply, val_main_v72_apply]
  exact congrArg x12 (funext fun a => Fin.ext (by match a with | ⟨0, _⟩ => rfl))

/-- The node stage's activation: the quotient spelling is silu. -/
theorem silu75 (i : S50000x128.Idx) :
    val_main_v75 (F := Ideal) x0 x1 x2 x3 x4 x5 x6 x11 x12 i
      = silu (val_main_v74 (F := Ideal) x0 x1 x2 x3 x4 x5 x6 x11 x12 i) := by
  rw [val_main_v75_apply, val_main_call3_v5_apply, val_main_call3_v4_apply, val_main_call3_cst_0_apply,
    val_main_call3_v3_apply, val_main_call3_v2_apply, val_main_call3_cst_apply, val_main_call3_v1_apply,
    val_main_call3_v0_apply]
  exact silu_quotient _

theorem lidx76 (p : Fin 50000) (q k : Fin 128) : lidx_main_v76 (ix2 p q) k = ix2 p k :=
  funext fun a => Fin.ext (by match a with | ⟨0, _⟩ => rfl | ⟨1, _⟩ => rfl)

theorem ridx76 (p : Fin 50000) (q k : Fin 128) : ridx_main_v76 (ix2 p q) k = ix2 k q :=
  funext fun a => Fin.ext (by match a with | ⟨0, _⟩ => rfl | ⟨1, _⟩ => rfl)

/-- The second bias row of the node stage, repeated down the nodes, at (p, q) is the bias vector's entry q. -/
theorem bias78 (p : Fin 50000) (q : Fin 128) : val_main_v78 (F := Ideal) x14 (ix2 p q) = x14 (ix1 q) := by
  rw [val_main_v78_apply, val_main_v77_apply]
  exact congrArg x14 (funext fun a => Fin.ext (by match a with | ⟨0, _⟩ => rfl))

/-- The node stage's hidden layer before its activation: the 256-sum splits into its two bands. -/
theorem hid74 (Wh Wm : Mat 128 128) (b1 : Mat 1 128)
    (hWh : ∀ j k : Fin 128, Wh (ix2 j k) = x11 (ix2 (⟨j.val, by omega⟩ : Fin 256) k))
    (hWm : ∀ j k : Fin 128, Wm (ix2 j k) = x11 (ix2 (⟨128 + j.val, by omega⟩ : Fin 256) k))
    (hb1 : ∀ k : Fin 128, b1 (ix2 (0 : Fin 1) k) = x12 (ix1 k)) (p : Fin 50000) (k : Fin 128) :
    val_main_v74 (F := Ideal) x0 x1 x2 x3 x4 x5 x6 x11 x12 (ix2 p k)
      = ((∑ j : Fin 128, x0 (ix2 p j) * Wh (ix2 j k))
          + ∑ j : Fin 128, val_main_v69 (F := Ideal) x0 x1 x2 x3 x4 x5 x6 (ix2 p j) * Wm (ix2 j k))
        + b1 (ix2 (0 : Fin 1) k) := by
  rw [val_main_v74_apply, val_main_v71_apply, bias73]
  simp only [lidx71, ridx71]
  rw [sum_256]
  simp only [cat256_left, cat256_right, hWh, hWm, hb1]
  rfl

/-- The reference's node update is the specification's, as a function of the reference's aggregated messages. -/
theorem node_out (Wh Wm : Mat 128 128) (b1 b2 : Mat 1 128)
    (hWh : ∀ j k : Fin 128, Wh (ix2 j k) = x11 (ix2 (⟨j.val, by omega⟩ : Fin 256) k))
    (hWm : ∀ j k : Fin 128, Wm (ix2 j k) = x11 (ix2 (⟨128 + j.val, by omega⟩ : Fin 256) k))
    (hb1 : ∀ k : Fin 128, b1 (ix2 (0 : Fin 1) k) = x12 (ix1 k))
    (hb2 : ∀ k : Fin 128, b2 (ix2 (0 : Fin 1) k) = x14 (ix1 k)) :
    val_main_v80 (F := Ideal) x0 x1 x2 x3 x4 x5 x6 x11 x12 x13 x14
      = nodeOut x0 (val_main_v69 (F := Ideal) x0 x1 x2 x3 x4 x5 x6) Wh Wm b1 x13 b2 := by
  funext i
  obtain ⟨p, q, rfl⟩ : ∃ (p : Fin 50000) (q : Fin 128), i = ix2 p q := ⟨i 0, i 1, eq_ix2 i⟩
  rw [nodeOut_ix2, val_main_v80_apply, val_main_v79_apply, val_main_v76_apply, bias78]
  simp only [lidx76, ridx76, silu75, hid74 x0 x1 x2 x3 x4 x5 x6 x11 x12 Wh Wm b1 hWh hWm hb1]
  unfold nodeOutAt
  rw [hb2]
  rfl

end Cert.ReferenceIdeal.RefValue

end
-- ==== Proof.HostBridge.lean ====
/-
  The kernel program's two results as the reference's stages of the kernel program's own arguments.

  Before the edge region the host gathers the endpoint features of every edge (after a conversion to bf16, the identity
  on the extended reals), forms the squared distance and the normalised difference: the same operations, on the same
  arguments, as the reference's.  The edge region's two arrays are the specification's message and weight functions of
  those (the edge value module), and the reference's message and weight stages are the same functions (the reference
  module), the weight bands being rows of the stacked matrices.  Between the regions the host scatter-adds the messages
  and the weighted differences onto the source nodes and adds the coordinates — again the reference's own operations —,
  and the node region's array is the specification's node update of the features and the aggregated messages, which is
  the reference's last stage.
-/
import proofs.«168866_j68195490726193_2_alg».proof.Proof.Gen.KernelIdeal.Frame
import proofs.«168866_j68195490726193_2_alg».proof.Proof.Gen.ReferenceIdeal.Read
import proofs.«168866_j68195490726193_2_alg».proof.Proof.Spec
import proofs.«168866_j68195490726193_2_alg».proof.Proof.HostBands
import proofs.«168866_j68195490726193_2_alg».proof.Proof.EdgeValue
import proofs.«168866_j68195490726193_2_alg».proof.Proof.NodeValue
import proofs.«168866_j68195490726193_2_alg».proof.Proof.RefStages
import Idealize.ShloMosaic.Lib.StableHlo.Run

set_option maxRecDepth 16384

noncomputable section

namespace Cert.KernelIdeal.HostValue

open Cert.KernelIdeal Cert.KernelIdeal.Gen Cert.Egcl
open Idealize.ShloMosaic Idealize.ShloMosaic.TcCoe Idealize.ShloMosaic.ValueIdx Idealize.SL.Sem Idealize.ShloMosaic.StableHlo
open Cert.ReferenceIdeal.Read (val_main_v1 val_main_v21 val_main_v26 val_main_v33 val_main_v40 val_main_v51 val_main_v60
  val_main_v66 val_main_v69 val_main_v80)

variable (m : (ℓ : Loc nD τ sig) → Buf (Elt Ideal) ℓ) (ρ : Dev nD → PrngReg)

/-! ## Before the edge region: the gathered features, the squared distance, the index column, the normalised difference -/

theorem V1_hr (c : Dev nD) :
    (V1 m ρ c main_v11 : S600000x128.Idx → EReal) = val_main_v33 (F := Ideal) (m ((c : Thread nD τ).loc main_arg0)) (m ((c : Thread nD τ).loc main_arg2)) := by
  show StableHlo.after hostOps0 (W0 m ρ c) (Proc.devRef .tc main_v11) = _
  after_results_simp <;> rfl

theorem V1_hc (c : Dev nD) :
    (V1 m ρ c main_v18 : S600000x128.Idx → EReal) = val_main_v40 (F := Ideal) (m ((c : Thread nD τ).loc main_arg0)) (m ((c : Thread nD τ).loc main_arg2)) := by
  show StableHlo.after hostOps0 (W0 m ρ c) (Proc.devRef .tc main_v18) = _
  after_results_simp <;> rfl

theorem V1_rad (c : Dev nD) :
    (V1 m ρ c main_v36 : S600000x1.Idx → EReal) = val_main_v21 (F := Ideal) (m ((c : Thread nD τ).loc main_arg1)) (m ((c : Thread nD τ).loc main_arg2)) := by
  show StableHlo.after hostOps0 (W0 m ρ c) (Proc.devRef .tc main_v36) = _
  after_results_simp <;> rfl

theorem W2_v1 (c : Dev nD) :
    (W2 m ρ c (Proc.devRef .tc main_v1) : S600000.Idx → BitVec 32) = val_main_v1 (F := Ideal) (m ((c : Thread nD τ).loc main_arg2)) := by
  refine (W2_of_ne m ρ c main_v1 (by decide)).trans ?_
  show StableHlo.after hostOps0 (W0 m ρ c) (Proc.devRef .tc main_v1) = _
  after_results_simp <;> rfl

theorem W2_v41 (c : Dev nD) :
    (W2 m ρ c (Proc.devRef .tc main_v41) : S600000x3.Idx → EReal) = val_main_v26 (F := Ideal) (m ((c : Thread nD τ).loc main_arg1)) (m ((c : Thread nD τ).loc main_arg2)) := by
  refine (W2_of_ne m ρ c main_v41 (by decide)).trans ?_
  show StableHlo.after hostOps0 (W0 m ρ c) (Proc.devRef .tc main_v41) = _
  after_results_simp <;> rfl

/-! ## The edge region's arrays -/

/-- The message array is the reference's message stage. -/
theorem W2_msg (c : Dev nD) :
    (W2 m ρ c (Proc.devRef .tc main_v54_0) : S600000x128.Idx → EReal) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 13).trans ?_
  rw [Cert.KernelIdeal.EdgeValue.msg_final (V1 m ρ) c, V1_hr, V1_hc, V1_rad, We2_eq]
  exact (Cert.ReferenceIdeal.RefValue.edge_msg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (V1 m ρ c main_v43) (V1 m ρ c main_v45) (V1 m ρ c main_v46) (V1 m ρ c main_v47) (V1 m ρ c main_v49)
    (Wr_at m ρ c) (Wc_at m ρ c) (Wrad_at m ρ c) (be1_at m ρ c) (be2_at m ρ c)).symm

/-- The weight column is the reference's weight stage. -/
theorem W2_wt (c : Dev nD) :
    (W2 m ρ c (Proc.devRef .tc main_v54_1) : S600000x1.Idx → EReal) = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W2_arr m ρ c 14).trans ?_
  rw [Cert.KernelIdeal.EdgeValue.wt_final (V1 m ρ) c, V1_hr, V1_hc, V1_rad, We2_eq, Wc1_eq, Wc2_eq]
  rw [← Cert.ReferenceIdeal.RefValue.edge_msg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (V1 m ρ c main_v43) (V1 m ρ c main_v45) (V1 m ρ c main_v46) (V1 m ρ c main_v47) (V1 m ρ c main_v49)
    (Wr_at m ρ c) (Wc_at m ρ c) (Wrad_at m ρ c) (be1_at m ρ c) (be2_at m ρ c)]
  exact (Cert.ReferenceIdeal.RefValue.edge_wt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (V1 m ρ c main_v51) (V1 m ρ c main_v53) (bc1_at m ρ c) (bc2_at m ρ c)).symm

/-! ## Between the regions, and the results -/

/-- The aggregated messages the node region reads are the reference's scatter stage. -/
theorem V3_mi (c : Dev nD) :
    (V3 m ρ c main_v59 : S50000x128.Idx → EReal) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v59) = _
  after_results_simp
  rw [W2_v1, W2_msg]
  rfl

/-- The coordinate result. -/
theorem W4_v63 (c : Dev nD) :
    (W4 m ρ c (Proc.devRef .tc main_v63) : S50000x3.Idx → EReal) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_of_ne m ρ c main_v63 (by decide)).trans ?_
  show StableHlo.after hostOps1 (W2 m ρ c) (Proc.devRef .tc main_v63) = _
  after_results_simp
  rw [W2_arg1, W2_v1, W2_v41, W2_wt]
  rfl

/-- The feature result. -/
theorem W4_v71 (c : Dev nD) :
    (W4 m ρ c (Proc.devRef .tc main_v71) : S50000x128.Idx → EReal) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) := by
  refine (W4_arr m ρ c 7).trans ?_
  rw [Cert.KernelIdeal.NodeValue.node_final (V3 m ρ) c, V3_arg0, V3_mi, Wn2_eq]
  exact (Cert.ReferenceIdeal.RefValue.node_out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14))
    (V3 m ρ c main_v65) (V3 m ρ c main_v67) (V3 m ρ c main_v68) (V3 m ρ c main_v70)
    (Wh_at m ρ c) (Wm_at m ρ c) (bn1_at m ρ c) (bn2_at m ρ c)).symm

end Cert.KernelIdeal.HostValue

end
-- ==== Proof.lean ====
/-
  An equivariant graph-convolution layer on 50000 nodes and 600000 edges: the kernel program against its reference,
  over the extended reals.

  Both programs gather the endpoint features and coordinates of every edge, form the squared distance rad and the
  normalised difference, run a two-layer edge network on [h_r | h_c | rad] to get a message per edge, a two-layer
  network on the message to get a scalar weight per edge, scatter-add messages and weighted differences onto the
  source nodes, and run a two-layer node network on [h | m_i] with a residual connection.  The kernel program runs the
  dense parts in two grid regions (edges in blocks of 4000 rows, nodes in blocks of 2000 rows) and multiplies by the
  row bands of the stacked weight matrices, adding the partial products, where the reference multiplies the
  concatenation by the stacked matrix; it spells silu with the logistic operation where the reference writes
  v · (1 / (1 + e^(-v))).  On the extended reals a conversion of float format is the identity, a sum over a stacked
  axis is the sum over its bands (no finiteness needed), and the two spellings of the logistic function agree at every
  extended real; every other operation is the same on both sides.  So both results are equal entry by entry, for all
  inputs; the precondition is not used.

  The three frames are the generated ones (the reference's is its generated run with the results dropped); no
  operation was rewritten by the idealization, so nothing is to be preserved.
-/
import proofs.«168866_j68195490726193_2_alg».proof.Defs
import proofs.«168866_j68195490726193_2_alg».proof.Proof.Gen.Kernel
import proofs.«168866_j68195490726193_2_alg».proof.Proof.Gen.Kernel.Skeleton
import proofs.«168866_j68195490726193_2_alg».proof.Proof.Gen.Kernel.Launch
import proofs.«168866_j68195490726193_2_alg».proof.Proof.Gen.Kernel.Points
import proofs.«168866_j68195490726193_2_alg».proof.Proof.Gen.Kernel.Frame
import proofs.«168866_j68195490726193_2_alg».proof.Proof.Gen.KernelIdeal
import proofs.«168866_j68195490726193_2_alg».proof.Proof.Gen.KernelIdeal.Skeleton
import proofs.«168866_j68195490726193_2_alg».proof.Proof.Gen.KernelIdeal.Launch
import proofs.«168866_j68195490726193_2_alg».proof.Proof.Gen.KernelIdeal.Points
import proofs.«168866_j68195490726193_2_alg».proof.Proof.Gen.KernelIdeal.Frame
import proofs.«168866_j68195490726193_2_alg».proof.Proof.Gen.ReferenceIdeal
import proofs.«168866_j68195490726193_2_alg».proof.Proof.Gen.ReferenceIdeal.Run
import proofs.«168866_j68195490726193_2_alg».proof.Proof.Gen.ReferenceIdeal.Read
import proofs.«168866_j68195490726193_2_alg».proof.Proof.Gen.Pre_finite_inputs
import proofs.«168866_j68195490726193_2_alg».proof.Proof.KernelRun
import proofs.«168866_j68195490726193_2_alg».proof.Proof.HostBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's last stages of the arguments: the kernel program by its run read through
    the two regions and the host stretches, the reference by its generated run; the arguments agree. -/
theorem algebraic : Cert.algebraic_KernelIdeal_ReferenceIdeal := by
  intro m ρ m' ρ' _ hagree
  refine ⟨fun c => Cert.ReferenceIdeal.Value.res_main_v80 m' c, fun c => Cert.ReferenceIdeal.Value.res_main_v66 m' c, ?_, ?_⟩
  · refine (θ_run Cert.KernelIdeal.defs _ _).mono (fun r h c => ?_) (Cert.KernelIdeal.RunValue.run_named (F := Ideal) m ρ)
    obtain ⟨g0, g1, g2, g3, g4, g5, g6, g7, g8, g9, g10, g11, g12, g13, g14⟩ := hagree c
    refine ⟨(h c).1.trans ?_, (h c).2.1.trans ?_, (h c).2.2⟩
    · beta_reduce
      rw [Cert.KernelIdeal.HostValue.W4_v71 m ρ c, Cert.ReferenceIdeal.Read.val_main_v80_eq, g0, g1, g2, g3, g4, g5, g6, g11, g12, g13, g14]
    · beta_reduce
      rw [Cert.KernelIdeal.HostValue.W4_v63 m ρ c, Cert.ReferenceIdeal.Read.val_main_v66_eq, g0, g1, g2, g3, g4, g5, g6, g7, g8, g9, g10]
  · exact (θ_run Cert.ReferenceIdeal.defs _ _).mono (fun _ h c => h c) (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
